-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S100000 : Shape := ⟨1, ![100000]⟩
abbrev S128x64 : Shape := ⟨2, ![128, 64]⟩
abbrev S128 : Shape := ⟨1, ![128]⟩
abbrev S128x128 : Shape := ⟨2, ![128, 128]⟩
abbrev S2x128 : Shape := ⟨2, ![2, 128]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S2x128 .f32) (main_arg10 : FVec F S2 .f32) (main_v33 : IVec S_ 1) : IVec S_ 1 :=
  let main_v34 : FVec F S2x128 .f32 := Host.absf main_arg9
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128x128 .f32) (main_arg7 : FVec F S128 .f32) (main_arg8 : FVec F S128x128 .f32) (main_arg9 : FVec F S2x128 .f32) (main_arg10 : FVec F S2 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1000000 32) (main_arg2 : IVec S100000 32) (main_arg3 : FVec F S128x64 .f32) (main_arg4 : FVec F S128 .f32) (main_arg5 : FVec F S128x64 .f32) (main_arg6 : FVec F S128x128 .f32) (main_arg7 : FVec F S128 .f32) (main_arg8 : FVec F S128x128 .f32) (main_arg9 : FVec F S2x128 .f32) (main_arg10 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1000000 : Shape := ⟨2, ![2, 1000000]⟩
abbrev S100000 : Shape := ⟨1, ![100000]⟩
abbrev S128x64 : Shape := ⟨2, ![128, 64]⟩
abbrev S128 : Shape := ⟨1, ![128]⟩
abbrev S128x128 : Shape := ⟨2, ![128, 128]⟩
abbrev S2x128 : Shape := ⟨2, ![2, 128]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000x1 : Shape := ⟨2, ![100000, 1]⟩
abbrev S64x128 : Shape := ⟨2, ![64, 128]⟩
abbrev S1x128 : Shape := ⟨2, ![1, 128]⟩
abbrev S100000x128 : Shape := ⟨2, ![100000, 128]⟩
abbrev S2000x64 : Shape := ⟨2, ![2000, 64]⟩
abbrev S2000x128 : Shape := ⟨2, ![2000, 128]⟩
abbrev S1000000x128 : Shape := ⟨2, ![1000000, 128]⟩
abbrev S256x128 : Shape := ⟨2, ![256, 128]⟩
abbrev S256x1 : Shape := ⟨2, ![256, 1]⟩
abbrev S128x2 : Shape := ⟨2, ![128, 2]⟩
abbrev S1x2 : Shape := ⟨2, ![1, 2]⟩
abbrev S256x2 : Shape := ⟨2, ![256, 2]⟩
abbrev S256 : Shape := ⟨1, ![256]⟩

abbrev nBuf : Space → Nat
  | .hbm => 89
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S100000, .i32⟩
  | .hbm, ⟨3, _⟩ => ⟨S128x64, .f32⟩
  | .hbm, ⟨4, _⟩ => ⟨S128, .f32⟩
  | .hbm, ⟨5, _⟩ => ⟨S128x64, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S2x128, .f32⟩
  | .hbm, ⟨10, _⟩ => ⟨S2, .f32⟩
  | .hbm, ⟨11, _⟩ => ⟨S1x1000000, .i32⟩
  | .hbm, ⟨12, _⟩ => ⟨S1000000, .i32⟩
  | .hbm, ⟨13, _⟩ => ⟨S1x1000000, .i32⟩
  | .hbm, ⟨14, _⟩ => ⟨S1000000, .i32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x64, .f32⟩
  | .hbm, ⟨24, _⟩ => ⟨S_, .f32⟩
  | .hbm, ⟨25, _⟩ => ⟨S100000x64, .f32⟩
  | .hbm, ⟨26, _⟩ => ⟨S1000000x1, .i32⟩
  | .hbm, ⟨27, _⟩ => ⟨S100000x64, .f32⟩
  | .hbm, ⟨28, _⟩ => ⟨S_, .f32⟩
  | .hbm, ⟨29, _⟩ => ⟨S1000000x1, .f32⟩
  | .hbm, ⟨30, _⟩ => ⟨S_, .f32⟩
  | .hbm, ⟨31, _⟩ => ⟨S100000x1, .f32⟩
  | .hbm, ⟨32, _⟩ => ⟨S1000000x1, .i32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S64x128, .f32⟩
  | .hbm, ⟨40, _⟩ => ⟨S64x128, .f32⟩
  | .hbm, ⟨41, _⟩ => ⟨S1x128, .f32⟩
  | .hbm, ⟨42, _⟩ => ⟨S100000x128, .f32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S1000000x1, .i32⟩
  | .hbm, ⟨51, _⟩ => ⟨S1000000x128, .f32⟩
  | .hbm, ⟨52, _⟩ => ⟨S_, .f32⟩
  | .hbm, ⟨53, _⟩ => ⟨S100000x128, .f32⟩
  | .hbm, ⟨54, _⟩ => ⟨S1000000x1, .i32⟩
  | .hbm, ⟨55, _⟩ => ⟨S100000x128, .f32⟩
  | .hbm, ⟨56, _⟩ => ⟨S_, .f32⟩
  | .hbm, ⟨57, _⟩ => ⟨S1000000x1, .f32⟩
  | .hbm, ⟨58, _⟩ => ⟨S_, .f32⟩
  | .hbm, ⟨59, _⟩ => ⟨S100000x1, .f32⟩
  | .hbm, ⟨60, _⟩ => ⟨S1000000x1, .i32⟩
  | .hbm, ⟨61, _⟩ => ⟨S100000x1, .f32⟩
  | .hbm, ⟨62, _⟩ => ⟨S_, .f32⟩
  | .hbm, ⟨63, _⟩ => ⟨S100000x1, .f32⟩
  | .hbm, ⟨64, _⟩ => ⟨S100000x1, .f32⟩
  | .hbm, ⟨65, _⟩ => ⟨S100000x128, .f32⟩
  | .hbm, ⟨66, _⟩ => ⟨S100000x128, .f32⟩
  | .hbm, ⟨67, _⟩ => ⟨S128x128, .f32⟩
  | .hbm, ⟨68, _⟩ => ⟨S128x128, .f32⟩
  | .hbm, ⟨69, _⟩ => ⟨S1x128, .f32⟩
  | .hbm, ⟨70, _⟩ => ⟨S100000x128, .f32⟩
  | .hbm, ⟨71, _⟩ => ⟨S_, .f32⟩
  | .hbm, ⟨72, _⟩ => ⟨S256x128, .f32⟩
  | .hbm, ⟨73, _⟩ => ⟨S100000x1, .i32⟩
  | .hbm, ⟨74, _⟩ => ⟨S256x128, .f32⟩
  | .hbm, ⟨75, _⟩ => ⟨S_, .f32⟩
  | .hbm, ⟨76, _⟩ => ⟨S100000x1, .f32⟩
  | .hbm, ⟨77, _⟩ => ⟨S_, .f32⟩
  | .hbm, ⟨78, _⟩ => ⟨S256x1, .f32⟩
  | .hbm, ⟨79, _⟩ => ⟨S100000x1, .i32⟩
  | .hbm, ⟨80, _⟩ => ⟨S256x1, .f32⟩
  | .hbm, ⟨81, _⟩ => ⟨S_, .f32⟩
  | .hbm, ⟨82, _⟩ => ⟨S256x1, .f32⟩
  | .hbm, ⟨83, _⟩ => ⟨S256x1, .f32⟩
  | .hbm, ⟨84, _⟩ => ⟨S256x128, .f32⟩
  | .hbm, ⟨85, _⟩ => ⟨S256x128, .f32⟩
  | .hbm, ⟨86, _⟩ => ⟨S128x2, .f32⟩
  | .hbm, ⟨87, _⟩ => ⟨S1x2, .f32⟩
  | .hbm, ⟨88, _⟩ => ⟨S256x2, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S256x128, .f32⟩
  | .local _ .vmem, ⟨19, _⟩ => ⟨S128x2, .f32⟩
  | .local _ .vmem, ⟨20, _⟩ => ⟨S1x2, .f32⟩
  | .local _ .vmem, ⟨21, _⟩ => ⟨S256x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_11 : Ref sig .tc := ⟨.hbm, 75, rfl⟩
abbrev main_v51 : Ref sig .tc := ⟨.hbm, 76, rfl⟩
abbrev main_cst_12 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_13 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S1000000x1 : S_.BroadcastsInDim S1000000x1 (![] : Fin 0 → Fin S1000000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S256x128 : S_.BroadcastsInDim S256x128 (![] : Fin 0 → Fin S256x128.rank)
  bcast_S100000_S100000x1_0 : S100000.BroadcastsInDim S100000x1 (![0] : Fin 1 → Fin S100000x1.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  transposes_S2x128_S128x2_1_0 : S2x128.Transposes [1, 0] S128x2
  shapeCasts_S2_S1x2 : S2.ShapeCasts S1x2
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S256x2 : S1x2.Broadcasts S256x2
  reduces_S256x2_S256 : S256x2.Reduces [1] S256
  shapeCasts_S256_S256x1 : S256.ShapeCasts S256x1
  broadcasts_S256x1_S256x2 : S256x1.Broadcasts S256x2
  inb_S256x2_S256x2_0_0 : ∀ a, (![0, 0] : Fin 2 → Nat) a + S256x2.size a ≤ S256x2.size a
  h_S256x2 : 0 < S256x2.numel
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000x1_S1000000x1_S1000000x1_1_0_0_1_wf : ScatterDims.WF S100000x1 S1000000x1 S1000000x1 [1] [0] [0] 1
  dot_S2000x64_S64x128_S2000x128_1_0_0_1_n_n_wf : DotDims.WF S2000x64 S64x128 S2000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S2000x128_S128x128_S2000x128_1_0_0_1_n_n_wf : DotDims.WF S2000x128 S128x128 S2000x128 [1] [0] [0] [1] [] []
  scatter_S256x128_S100000x1_S100000x128_1_0_0_1_wf : ScatterDims.WF S256x128 S100000x1 S100000x128 [1] [0] [0] 1
  scatter_S256x1_S100000x1_S100000x1_1_0_0_1_wf : ScatterDims.WF S256x1 S100000x1 S100000x1 [1] [0] [0] 1
  dot_S256x128_S128x2_S256x2_1_0_0_1_n_n_wf : DotDims.WF S256x128 S128x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x128.size a ≤ S256x128.size a
  hwx2_0 : ∀ i : grid2.Coords, EltTy.bits .f32 = 32 ∨ (Rect.block (s := S256x128) S256x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x2.size a ≤ S128x2.size a
  hwx2_1 : ∀ i : grid2.Coords, EltTy.bits .f32 = 32 ∨ (Rect.block (s := S128x2) S128x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x2.size a ≤ S256x2.size a
  hwx2_3 : ∀ i : grid2.Coords, EltTy.bits .f32 = 32 ∨ (Rect.block (s := S256x2) S256x2.size (cc2_transform_3 i) (hinb2_3 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256x1_S100000x1_S100000x1_1_0_0_1 : ScatterDims S256x1 S100000x1 S100000x1 where
  updateWindowDims := [1]
  insertedWindowDims := [0]
  scatterDimsToOperandDims := [0]
  indexVectorDim := 1
  wf := scatter_S256x1_S100000x1_S100000x1_1_0_0_1_wf
def dot_S256x128_S128x2_S256x2_1_0_0_1_n_n : DotDims S256x128 S128x2 S256x2 where
  lhsContracting := [1]
  rhsContracting := [0]
  lhsNonContracting := [0]
  rhsNonContracting := [1]
  lhsBatch := []
  rhsBatch := []
  wf := dot_S256x128_S128x2_S256x2_1_0_0_1_n_n_wf

abbrev win0_0 : Pipeline.Window sig grid0 :=
  Pipeline.Window.ofSpec (Memref.whole main_v21) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S256x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v59) S128x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S256x2.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S100000 : Shape := ⟨1, ![100000]⟩
abbrev S128x64 : Shape := ⟨2, ![128, 64]⟩
abbrev S128 : Shape := ⟨1, ![128]⟩
abbrev S128x128 : Shape := ⟨2, ![128, 128]⟩
abbrev S2x128 : Shape := ⟨2, ![2, 128]⟩
abbrev S2 : Shape := ⟨1, ![2]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000x1 : Shape := ⟨2, ![100000, 1]⟩
abbrev S64x128 : Shape := ⟨2, ![64, 128]⟩
abbrev S100000x128 : Shape := ⟨2, ![100000, 128]⟩
abbrev S1x128 : Shape := ⟨2, ![1, 128]⟩
abbrev S1000000x128 : Shape := ⟨2, ![1000000, 128]⟩
abbrev S256x128 : Shape := ⟨2, ![256, 128]⟩
abbrev S256x1 : Shape := ⟨2, ![256, 1]⟩
abbrev S128x2 : Shape := ⟨2, ![128, 2]⟩
abbrev S256x2 : Shape := ⟨2, ![256, 2]⟩
abbrev S1x2 : Shape := ⟨2, ![1, 2]⟩
abbrev S256 : Shape := ⟨1, ![256]⟩

abbrev nBuf : Space → Nat
  | .hbm => 120
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S100000, .i32⟩
  | .hbm, ⟨3, _⟩ => ⟨S128x64, .f32⟩
  | .hbm, ⟨4, _⟩ => ⟨S128, .f32⟩
  | .hbm, ⟨5, _⟩ => ⟨S128x64, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S2x128, .f32⟩
  | .hbm, ⟨10, _⟩ => ⟨S2, .f32⟩
  | .hbm, ⟨11, _⟩ => ⟨S1x1000000, .i32⟩
  | .hbm, ⟨12, _⟩ => ⟨S1000000, .i32⟩
  | .hbm, ⟨13, _⟩ => ⟨S1x1000000, .i32⟩
  | .hbm, ⟨14, _⟩ => ⟨S1000000, .i32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x64, .f32⟩
  | .hbm, ⟨24, _⟩ => ⟨S_, .f32⟩
  | .hbm, ⟨25, _⟩ => ⟨S100000x64, .f32⟩
  | .hbm, ⟨26, _⟩ => ⟨S1000000x1, .i32⟩
  | .hbm, ⟨27, _⟩ => ⟨S100000x64, .f32⟩
  | .hbm, ⟨28, _⟩ => ⟨S_, .f32⟩
  | .hbm, ⟨29, _⟩ => ⟨S1000000x1, .f32⟩
  | .hbm, ⟨30, _⟩ => ⟨S_, .f32⟩
  | .hbm, ⟨31, _⟩ => ⟨S100000x1, .f32⟩
  | .hbm, ⟨32, _⟩ => ⟨S1000000x1, .i32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S64x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S64x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1000000, .i32⟩
  | .hbm, ⟨52, _⟩ => ⟨S1000000, .i1⟩
  | .hbm, ⟨53, _⟩ => ⟨S_, .i32⟩
  | .hbm, ⟨54, _⟩ => ⟨S1000000, .i32⟩
  | .hbm, ⟨55, _⟩ => ⟨S1000000, .i32⟩
  | .hbm, ⟨56, _⟩ => ⟨S1000000, .i32⟩
  | .hbm, ⟨57, _⟩ => ⟨S1000000x1, .i32⟩
  | .hbm, ⟨58, _⟩ => ⟨S1000000x128, .f32⟩
  | .hbm, ⟨59, _⟩ => ⟨S_, .f32⟩
  | .hbm, ⟨60, _⟩ => ⟨S100000x128, .f32⟩
  | .hbm, ⟨61, _⟩ => ⟨S1000000x1, .i32⟩
  | .hbm, ⟨62, _⟩ => ⟨S100000x128, .f32⟩
  | .hbm, ⟨63, _⟩ => ⟨S_, .f32⟩
  | .hbm, ⟨64, _⟩ => ⟨S1000000x1, .f32⟩
  | .hbm, ⟨65, _⟩ => ⟨S_, .f32⟩
  | .hbm, ⟨66, _⟩ => ⟨S100000x1, .f32⟩
  | .hbm, ⟨67, _⟩ => ⟨S1000000x1, .i32⟩
  | .hbm, ⟨68, _⟩ => ⟨S100000x1, .f32⟩
  | .hbm, ⟨69, _⟩ => ⟨S_, .f32⟩
  | .hbm, ⟨70, _⟩ => ⟨S100000x1, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S128x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S128x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S256x128, .f32⟩
  | .hbm, ⟨87, _⟩ => ⟨S100000x1, .i32⟩
  | .hbm, ⟨88, _⟩ => ⟨S256x128, .f32⟩
  | .hbm, ⟨89, _⟩ => ⟨S_, .f32⟩
  | .hbm, ⟨90, _⟩ => ⟨S100000x1, .f32⟩
  | .hbm, ⟨91, _⟩ => ⟨S_, .f32⟩
  | .hbm, ⟨92, _⟩ => ⟨S256x1, .f32⟩
  | .hbm, ⟨93, _⟩ => ⟨S100000x1, .i32⟩
  | .hbm, ⟨94, _⟩ => ⟨S256x1, .f32⟩
  | .hbm, ⟨95, _⟩ => ⟨S_, .f32⟩
  | .hbm, ⟨96, _⟩ => ⟨S256x1, .f32⟩
  | .hbm, ⟨97, _⟩ => ⟨S256x1, .f32⟩
  | .hbm, ⟨98, _⟩ => ⟨S256x128, .f32⟩
  | .hbm, ⟨99, _⟩ => ⟨S256x128, .f32⟩
  | .hbm, ⟨100, _⟩ => ⟨S128x2, .f32⟩
  | .hbm, ⟨101, _⟩ => ⟨S256x2, .f32⟩
  | .hbm, ⟨102, _⟩ => ⟨S1x2, .f32⟩
  | .hbm, ⟨103, _⟩ => ⟨S256x2, .f32⟩
  | .hbm, ⟨104, _⟩ => ⟨S256x2, .f32⟩
  | .hbm, ⟨105, _⟩ => ⟨S_, .f32⟩
  | .hbm, ⟨106, _⟩ => ⟨S256, .f32⟩
  | .hbm, ⟨107, _⟩ => ⟨S_, .f32⟩
  | .hbm, ⟨108, _⟩ => ⟨S256, .f32⟩
  | .hbm, ⟨109, _⟩ => ⟨S256, .f32⟩
  | .hbm, ⟨110, _⟩ => ⟨S256x1, .f32⟩
  | .hbm, ⟨111, _⟩ => ⟨S256x2, .f32⟩
  | .hbm, ⟨112, _⟩ => ⟨S256x2, .f32⟩
  | .hbm, ⟨113, _⟩ => ⟨S256x2, .f32⟩
  | .hbm, ⟨114, _⟩ => ⟨S_, .f32⟩
  | .hbm, ⟨115, _⟩ => ⟨S256, .f32⟩
  | .hbm, ⟨116, _⟩ => ⟨S256x1, .f32⟩
  | .hbm, ⟨117, _⟩ => ⟨S256x1, .f32⟩
  | .hbm, ⟨118, _⟩ => ⟨S256x2, .f32⟩
  | .hbm, ⟨119, _⟩ => ⟨S256x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call0_cst : Ref sig .tc := ⟨.hbm, 47, rfl⟩
abbrev main_call0_v0 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call1_cst : Ref sig .tc := ⟨.hbm, 82, rfl⟩
abbrev main_call1_v0 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_cst_12 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_call2_cst : Ref sig .tc := ⟨.hbm, 105, rfl⟩
abbrev main_call2_v0 : Ref sig .tc := ⟨.hbm, 106, rfl⟩
abbrev main_call2_cst_0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_v6 : Ref sig .tc := ⟨.hbm, 113, rfl⟩
abbrev main_call2_cst_1 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_v74 : Ref sig .tc := ⟨.hbm, 119, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S1000000x1 : S_.BroadcastsInDim S1000000x1 (![] : Fin 0 → Fin S1000000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  bcast_S_S256x128 : S_.BroadcastsInDim S256x128 (![] : Fin 0 → Fin S256x128.rank)
  bcast_S100000_S100000x1_0 : S100000.BroadcastsInDim S100000x1 (![0] : Fin 1 → Fin S100000x1.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  transposes_S2x128_S128x2_1_0 : S2x128.Transposes [1, 0] S128x2
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  reducesTo_S256x2_S256_d1 : S256x2.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x2_0_1 : S256x1.BroadcastsInDim S256x2 (![0, 1] : Fin 2 → Fin S256x2.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000x1_S1000000x1_S1000000x1_1_0_0_1_wf : ScatterDims.WF S100000x1 S1000000x1 S1000000x1 [1] [0] [0] 1
  dot_S100000x64_S64x128_S100000x128_1_0_0_1_n_n_wf : DotDims.WF S100000x64 S64x128 S100000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x128_S100000x128_1_0_0_1_n_n_wf : DotDims.WF S100000x128 S128x128 S100000x128 [1] [0] [0] [1] [] []
  scatter_S256x128_S100000x1_S100000x128_1_0_0_1_wf : ScatterDims.WF S256x128 S100000x1 S100000x128 [1] [0] [0] 1
  scatter_S256x1_S100000x1_S100000x1_1_0_0_1_wf : ScatterDims.WF S256x1 S100000x1 S100000x1 [1] [0] [0] 1
  dot_S256x128_S128x2_S256x2_1_0_0_1_n_n_wf : DotDims.WF S256x128 S128x2 S256x2 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256x1_S100000x1_S100000x1_1_0_0_1 : ScatterDims S256x1 S100000x1 S100000x1 where
  updateWindowDims := [1]
  insertedWindowDims := [0]
  scatterDimsToOperandDims := [0]
  indexVectorDim := 1
  wf := scatter_S256x1_S100000x1_S100000x1_1_0_0_1_wf
def dot_S256x128_S128x2_S256x2_1_0_0_1_n_n : DotDims S256x128 S128x2 S256x2 where
  lhsContracting := [1]
  rhsContracting := [0]
  lhsNonContracting := [0]
  rhsNonContracting := [1]
  lhsBatch := []
  rhsBatch := []
  wf := dot_S256x128_S128x2_S256x2_1_0_0_1_n_n_wf

class Facts : Prop extends Facts₀ where

variable [Facts]
-- ==== Proof.KernelRun.lean ====
/-
  The idealized kernel's run with its result named.

  @main is six segments — three stretches of host operations and three launches — and the contents of every
  unscoped buffer at each boundary form a fold from the launch memory: after a host stretch, the stretch's
  operations applied; after a launch, its arrays at what the pipeline's write-backs leave and every other buffer
  untouched. Every weakly fair execution terminates, faultless, with each unscoped buffer at the last boundary's
  contents. Read at the result buffer this names the kernel program's result; read at the argument buffers it
  walks back to the launch memory.
-/
import proofs.«140991_j31748398252702_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and every argument array as launched. -/
theorem run : θ_run defs (onTc (τ := τ) (main (F := F))) ⟨m, fun _ => 0, ρ⟩ (fun r => ∀ c : Dev nD,
      r.2.mem ((c.tc : Thread nD τ).loc main_v61) = W6 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v61 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Out

end
-- ==== Proof.Host0.lean ====
/-
  The contents at the first launch's entry.

  Before the first launch @main runs the edge aggregation on the host: the two rows of the edge index, the
  gather of source features, the two scatter-adds (features and degrees), the division by the clamped degree; and
  it lays out the launch's small operands (the two weight matrices transposed, the bias as a [1, 128] row). These are
  the reference's own first operations, in the same order, so each buffer at the launch's entry holds the
  reference's stage of the same name of the launch memory's arguments.
-/
import proofs.«140991_j31748398252702_1_alg».proof.Proof.Gen.KernelIdeal.Frame
import proofs.«140991_j31748398252702_1_alg».proof.Proof.Gen.ReferenceIdeal.Read

set_option maxRecDepth 16384

noncomputable section

namespace Cert.KernelIdeal.Stretch

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

set_option maxHeartbeats 4000000 in
/-- The aggregated features entering the first launch. -/
theorem w1_agg (c : Dev nD) : W1 m ρ c (Proc.devRef .tc main_v21)
    = Cert.ReferenceIdeal.Read.val_main_v21 (F := Ideal) (m ((c : Thread nD τ).loc main_arg0)) (m ((c : Thread nD τ).loc main_arg1)) := by
  show StableHlo.after hostOps0 (W0 m ρ c) (Proc.devRef .tc main_v21) = _
  after_results_simp <;> rfl

/-- The node features are the argument. -/
theorem w1_x (c : Dev nD) : W1 m ρ c (Proc.devRef .tc main_arg0) = m ((c : Thread nD τ).loc main_arg0) := by
  show StableHlo.after hostOps0 (W0 m ρ c) (Proc.devRef .tc main_arg0) = _
  after_results <;> rfl

/-- The left weight matrix, transposed. -/
theorem w1_wl (c : Dev nD) : W1 m ρ c (Proc.devRef .tc main_v22)
    = Cert.ReferenceIdeal.Read.val_main_v22 (F := Ideal) (m ((c : Thread nD τ).loc main_arg3)) := by
  show StableHlo.after hostOps0 (W0 m ρ c) (Proc.devRef .tc main_v22) = _
  after_results <;> rfl

/-- The right weight matrix, transposed. -/
theorem w1_wr (c : Dev nD) : W1 m ρ c (Proc.devRef .tc main_v23)
    = Cert.ReferenceIdeal.Read.val_main_v27 (F := Ideal) (m ((c : Thread nD τ).loc main_arg5)) := by
  show StableHlo.after hostOps0 (W0 m ρ c) (Proc.devRef .tc main_v23) = _
  after_results <;> rfl

/-- The bias as a [1, 128] row. -/
theorem w1_b (c : Dev nD) : W1 m ρ c (Proc.devRef .tc main_v24)
    = shapeCast S1x128 (m ((c : Thread nD τ).loc main_arg4)) Facts₀.shapeCasts_S128_S1x128 := by
  show StableHlo.after hostOps0 (W0 m ρ c) (Proc.devRef .tc main_v24) = _
  after_results <;> rfl

/-- The source row of the edge index. -/
theorem w1_src (c : Dev nD) : W1 m ρ c (Proc.devRef .tc main_v1)
    = Cert.ReferenceIdeal.Read.val_main_v1 (F := Ideal) (m ((c : Thread nD τ).loc main_arg1)) := by
  show StableHlo.after hostOps0 (W0 m ρ c) (Proc.devRef .tc main_v1) = _
  after_results <;> rfl

/-- The target row of the edge index. -/
theorem w1_dst (c : Dev nD) : W1 m ρ c (Proc.devRef .tc main_v3)
    = Cert.ReferenceIdeal.Read.val_main_v3 (F := Ideal) (m ((c : Thread nD τ).loc main_arg1)) := by
  show StableHlo.after hostOps0 (W0 m ρ c) (Proc.devRef .tc main_v3) = _
  after_results <;> rfl

/-- An argument the first stretch does not write is as launched. -/
theorem w1_arg2 (c : Dev nD) : W1 m ρ c (Proc.devRef .tc main_arg2) = m ((c : Thread nD τ).loc main_arg2) := by
  show StableHlo.after hostOps0 (W0 m ρ c) (Proc.devRef .tc main_arg2) = _
  after_results <;> rfl
theorem w1_arg6 (c : Dev nD) : W1 m ρ c (Proc.devRef .tc main_arg6) = m ((c : Thread nD τ).loc main_arg6) := by
  show StableHlo.after hostOps0 (W0 m ρ c) (Proc.devRef .tc main_arg6) = _
  after_results <;> rfl
theorem w1_arg7 (c : Dev nD) : W1 m ρ c (Proc.devRef .tc main_arg7) = m ((c : Thread nD τ).loc main_arg7) := by
  show StableHlo.after hostOps0 (W0 m ρ c) (Proc.devRef .tc main_arg7) = _
  after_results <;> rfl
theorem w1_arg8 (c : Dev nD) : W1 m ρ c (Proc.devRef .tc main_arg8) = m ((c : Thread nD τ).loc main_arg8) := by
  show StableHlo.after hostOps0 (W0 m ρ c) (Proc.devRef .tc main_arg8) = _
  after_results <;> rfl
theorem w1_arg9 (c : Dev nD) : W1 m ρ c (Proc.devRef .tc main_arg9) = m ((c : Thread nD τ).loc main_arg9) := by
  show StableHlo.after hostOps0 (W0 m ρ c) (Proc.devRef .tc main_arg9) = _
  after_results <;> rfl
theorem w1_arg10 (c : Dev nD) : W1 m ρ c (Proc.devRef .tc main_arg10) = m ((c : Thread nD τ).loc main_arg10) := by
  show StableHlo.after hostOps0 (W0 m ρ c) (Proc.devRef .tc main_arg10) = _
  after_results <;> rfl

end Cert.KernelIdeal.Stretch

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.Layer1Pay.lean ====
/-
  The first layer's body at an element.

  The body loads a [2000, 64] block of the aggregated features and of the node features, the two [64, 128] weight
  matrices and the [1, 128] bias row, and stores max(a · Wl + b + x · Wr, 0). On the extended reals the changes of
  float format are the identity and each product into a zero accumulator is a plain sum over the contracted
  coordinate, so at row p and column q the stored value is
    max((Σ k, a(p,k) · Wl(k,q)) + b(0,q) + Σ k, x(p,k) · Wr(k,q), 0).
-/
import proofs.«140991_j31748398252702_1_alg».proof.Proof.Gen.KernelIdeal.Skeleton
import proofs.«140991_j31748398252702_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Layer1

open Cert.KernelIdeal Cert.KernelIdeal.Gen Idealize.ShloMosaic Idealize.ShloMosaic.ValueIdx

/-- The product's left index keeps the output's row. -/
theorem dot_row (j : S2000x128.Idx) (c : dot_S2000x64_S64x128_S2000x128_1_0_0_1_n_n.contr.Idx) :
    (dot_S2000x64_S64x128_S2000x128_1_0_0_1_n_n.lhsIdx j c 0).val = (j 0).val := by
  unfold DotDims.lhsIdx
  rw [dif_neg (show ¬(0 : Fin S2000x64.rank) ∈ dot_S2000x64_S64x128_S2000x128_1_0_0_1_n_n.lhsBatch by decide),
    dif_pos (show (0 : Fin S2000x64.rank) ∈ dot_S2000x64_S64x128_S2000x128_1_0_0_1_n_n.lhsNonContracting by decide)]
  rfl

/-- The product's right index keeps the output's column. -/
theorem dot_col (j : S2000x128.Idx) (c : dot_S2000x64_S64x128_S2000x128_1_0_0_1_n_n.contr.Idx) :
    (dot_S2000x64_S64x128_S2000x128_1_0_0_1_n_n.rhsIdx j c 1).val = (j 1).val := by
  unfold DotDims.rhsIdx
  rw [dif_neg (show ¬(1 : Fin S64x128.rank) ∈ dot_S2000x64_S64x128_S2000x128_1_0_0_1_n_n.rhsBatch by decide),
    dif_pos (show (1 : Fin S64x128.rank) ∈ dot_S2000x64_S64x128_S2000x128_1_0_0_1_n_n.rhsNonContracting by decide)]
  rfl

/-- A [2000, 64] block times a [64, 128] matrix into the zero accumulator, at (p, q). -/
theorem dot_apply (l : FVec Ideal S2000x64 .bf16) (r : FVec Ideal S64x128 .bf16) (p : Fin 2000) (q : Fin 128) :
    FloatOps.matmul dot_S2000x64_S64x128_S2000x128_1_0_0_1_n_n none l r (constant S2000x128 .f32 0x00000000#32) (ix2 p q)
      = ∑ k : Fin 64, l (ix2 p k) * r (ix2 k q) :=
  Cert.LibPlainDot.matmul_zero_apply dot_S2000x64_S64x128_S2000x128_1_0_0_1_n_n rfl rfl dot_row dot_col rfl rfl none l r p q

/-- The stored value at row p, column q. -/
theorem pay_apply (a x : Vec Ideal S2000x64 .f32) (wl wr : Vec Ideal S64x128 .f32) (b : Vec Ideal S1x128 .f32)
    (p : Fin 2000) (q : Fin 128) :
    k0_pay1 (F := Ideal) a x wl wr b (ix2 p q)
      = max (((∑ k : Fin 64, a (ix2 p k) * wl (ix2 k q)) + b (ix2 (0 : Fin 1) q)) + ∑ k : Fin 64, x (ix2 p k) * wr (ix2 k q))
          (Ideal.ofBits .f32 0x00000000#32) := by
  unfold k0_pay1
  simp only [shapeCast_self]
  rw [maximumf_apply, addf_apply, addf_apply, broadcast_apply]
  simp only [matmul]
  rw [dot_apply, dot_apply, broadcastTo_1b_ab_apply]
  rfl

end Cert.KernelIdeal.Layer1

end
-- ==== Proof.Layer1Array.lean ====
/-
  The first layer's output array after its launch.

  The launch has 50 grid points; point t stages rows 2000·t … 2000·t + 1999 of the aggregated features and of the
  node features, the two weight matrices and the bias row whole, and writes back rows 2000·t … 2000·t + 1999 of the
  output. Each row of the output depends only on the same row of the two feature arrays, so what point t writes back is
  block t of ONE function of the arrays as the launch finds them:
    out(r, q) = max((Σ k, a(r,k) · Wl(k,q)) + b(0,q) + Σ k, x(r,k) · Wr(k,q), 0).
  The 50 blocks tile the 100000 rows (row r lies in block r / 2000), so the output array ends holding that function.
  Everything is stated for arbitrary contents V at the launch's entry.
-/
import proofs.«140991_j31748398252702_1_alg».proof.Proof.Gen.KernelIdeal.Frame
import proofs.«140991_j31748398252702_1_alg».proof.Proof.Layer1Pay

set_option maxRecDepth 16384

noncomputable section

open scoped BigOperators

namespace Cert.KernelIdeal.Layer1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The layer as one function of whole arrays: row r, column q. -/
def G (A X : S100000x64.Idx → Elt Ideal .f32) (Wl Wr : S64x128.Idx → Elt Ideal .f32) (B : S1x128.Idx → Elt Ideal .f32) :
    S100000x128.Idx → Elt Ideal .f32 := fun i =>
  max (((∑ k : Fin 64, A (ix2 ⟨(i 0).val, (i 0).isLt⟩ k) * Wl (ix2 k ⟨(i 1).val, (i 1).isLt⟩))
        + B (ix2 (0 : Fin 1) ⟨(i 1).val, (i 1).isLt⟩))
      + ∑ k : Fin 64, X (ix2 ⟨(i 0).val, (i 0).isLt⟩ k) * Wr (ix2 k ⟨(i 1).val, (i 1).isLt⟩))
    (Ideal.ofBits .f32 0x00000000#32)

/-- The printed index maps over the grid: the two feature windows and the output move one block of rows per point,
    the weights and the bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 50 :=
  Nat.lt_of_lt_of_eq t.isLt (show cfg0.N = 50 from N_0)

theorem row_lt (t : Fin cfg0.N) (p : Fin 2000) : t.val * 2000 + p.val < 100000 := by
  have := point_lt t; have := p.isLt; omega

/-- Point t's block of the aggregated features is rows 2000·t … of the array. -/
theorem read_agg (c : Dev nD) (t : Fin cfg0.N) (p : Fin 2000) (k : Fin 64) :
    iblk0 V c 0 t (ix2 p k) = (V c main_v21 : S100000x64.Idx → Elt Ideal .f32) (ix2 ⟨t.val * 2000 + p.val, row_lt t p⟩ k) := by
  obtain ⟨e0, e1, -⟩ := idx_facts t
  show (V c main_v21 : S100000x64.Idx → Elt Ideal .f32) (((cfg0.win 0).blk t).view.emb (ix2 p k)) = _
  refine congrArg (V c main_v21 : S100000x64.Idx → Elt Ideal .f32) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 64 + 1 * k.val = k.val; rw [e1]; omega

/-- Point t's block of the node features is rows 2000·t … of the array. -/
theorem read_x (c : Dev nD) (t : Fin cfg0.N) (p : Fin 2000) (k : Fin 64) :
    iblk0 V c 1 t (ix2 p k) = (V c main_arg0 : S100000x64.Idx → Elt Ideal .f32) (ix2 ⟨t.val * 2000 + p.val, row_lt t p⟩ k) := by
  obtain ⟨-, -, e0, e1, -⟩ := idx_facts t
  show (V c main_arg0 : S100000x64.Idx → Elt Ideal .f32) (((cfg0.win 1).blk t).view.emb (ix2 p k)) = _
  refine congrArg (V c main_arg0 : S100000x64.Idx → Elt Ideal .f32) (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 64 + 1 * k.val = k.val; rw [e1]; omega

/-- The left weight matrix is staged whole. -/
theorem read_wl (c : Dev nD) (t : Fin cfg0.N) (y : S64x128.Idx) :
    iblk0 V c 2 t y = (V c main_v22 : S64x128.Idx → Elt Ideal .f32) y := by
  obtain ⟨-, -, -, -, e0, e1, -⟩ := idx_facts t
  show (V c main_v22 : S64x128.Idx → Elt Ideal .f32) (((cfg0.win 2).blk t).view.emb y) = _
  refine congrArg (V c main_v22 : S64x128.Idx → Elt Ideal .f32) (funext fun a => Fin.ext ?_)
  match a with
  | ⟨0, _⟩ => show win0_2.index t (0 : Fin 2) * 64 + 1 * (y 0).val = (y 0).val; rw [e0]; omega
  | ⟨1, _⟩ => show win0_2.index t (1 : Fin 2) * 128 + 1 * (y 1).val = (y 1).val; rw [e1]; omega

/-- The bias row is staged whole. -/
theorem read_b (c : Dev nD) (t : Fin cfg0.N) (y : S1x128.Idx) :
    iblk0 V c 3 t y = (V c main_v24 : S1x128.Idx → Elt Ideal .f32) y := by
  obtain ⟨-, -, -, -, -, -, e0, e1, -⟩ := idx_facts t
  show (V c main_v24 : S1x128.Idx → Elt Ideal .f32) (((cfg0.win 3).blk t).view.emb y) = _
  refine congrArg (V c main_v24 : S1x128.Idx → Elt Ideal .f32) (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The right weight matrix is staged whole. -/
theorem read_wr (c : Dev nD) (t : Fin cfg0.N) (y : S64x128.Idx) :
    iblk0 V c 4 t y = (V c main_v23 : S64x128.Idx → Elt Ideal .f32) y := by
  obtain ⟨-, -, -, -, -, -, -, -, e0, e1, -⟩ := idx_facts t
  show (V c main_v23 : S64x128.Idx → Elt Ideal .f32) (((cfg0.win 4).blk t).view.emb y) = _
  refine congrArg (V c main_v23 : S64x128.Idx → Elt Ideal .f32) (funext fun a => Fin.ext ?_)
  match a with
  | ⟨0, _⟩ => show win0_4.index t (0 : Fin 2) * 64 + 1 * (y 0).val = (y 0).val; rw [e0]; omega
  | ⟨1, _⟩ => show win0_4.index t (1 : Fin 2) * 128 + 1 * (y 1).val = (y 1).val; rw [e1]; omega

/-- What point t writes back is block t of the layer's function of the arrays as the launch finds them. -/
theorem flushed_eq (c : Dev nD) (t : Fin cfg0.N) :
    (dat0 V c).flushed 5 t = ((cfg0.win 5).blk t).view.read (Elt Ideal)
      (G (V c main_v21) (V c main_arg0) (V c main_v22) (V c main_v23) (V c main_v24)) := by
  show (cfg0.win 5).cut (grid0.coords t) ((dat0 V c).after 5 t) = _
  rw [after0_5]
  unfold out0_5
  rw [View.canon_unit_zero zeros]
  simp only [View.ld_unit_zero (S := S2000x64) zeros, View.ld_unit_zero (S := S64x128) zeros, View.ld_unit_zero (S := S1x128) zeros]
  funext j
  obtain ⟨-, -, -, -, -, -, -, -, -, -, e0, e1⟩ := idx_facts t
  have hj0 : (j 0).val < 2000 := (j 0).isLt
  have hj1 : (j 1).val < 128 := (j 1).isLt
  have hj : j = ix2 (⟨(j 0).val, hj0⟩ : Fin 2000) (⟨(j 1).val, hj1⟩ : Fin 128) :=
    funext fun a => match a with | ⟨0, _⟩ => rfl | ⟨1, _⟩ => rfl
  have hemb : ((cfg0.win 5).blk t).view.emb j
      = ix2 (⟨t.val * 2000 + (j 0).val, row_lt t ⟨(j 0).val, hj0⟩⟩ : Fin 100000) (⟨(j 1).val, hj1⟩ : Fin 128) := by
    funext a; apply Fin.ext
    match a with
    | ⟨0, _⟩ => show win0_5.index t (0 : Fin 2) * 2000 + 1 * (j 0).val = t.val * 2000 + (j 0).val; rw [e0]; omega
    | ⟨1, _⟩ => show win0_5.index t (1 : Fin 2) * 128 + 1 * (j 1).val = (j 1).val; rw [e1]; omega
  show k0_pay1 (iblk0 V c 0 t) (iblk0 V c 1 t) (iblk0 V c 2 t) (iblk0 V c 4 t) (iblk0 V c 3 t) j
      = G (V c main_v21) (V c main_arg0) (V c main_v22) (V c main_v23) (V c main_v24) (((cfg0.win 5).blk t).view.emb j)
  rw [hemb]
  refine (congrArg (k0_pay1 (iblk0 V c 0 t) (iblk0 V c 1 t) (iblk0 V c 2 t) (iblk0 V c 4 t) (iblk0 V c 3 t)) hj).trans ?_
  refine (pay_apply _ _ _ _ _ _ _).trans ?_
  simp only [read_agg, read_x, read_wl, read_b, read_wr]
  rfl

/-- An index of the output array is in point t's block iff each coordinate is in the block's range on its axis. -/
theorem mem_blk (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v25).slice (win0_5.rect t)).set ↔ _
  rw [View.set_slice_whole, Rect.mem_set_unit]
  exact Iff.rfl

/-- Every row of the output lies in some point's block: row r in block r / 2000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hq : (i 0).val / 2000 < cfg0.N := by rw [show cfg0.N = 50 from N_0]; omega
  refine ⟨⟨(i 0).val / 2000, hq⟩, flush0_5 _, ?_⟩
  rw [mem_blk]
  obtain ⟨-, -, -, -, -, -, -, -, -, -, e0, e1⟩ := idx_facts ⟨(i 0).val / 2000, hq⟩
  intro a
  match a with
  | ⟨0, _⟩ =>
    show win0_5.index ⟨(i 0).val / 2000, hq⟩ (0 : Fin 2) * 2000 ≤ (i 0).val
      ∧ (i 0).val < win0_5.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, hq⟩ (1 : Fin 2) * 128 ≤ (i 1).val
      ∧ (i 1).val < win0_5.index ⟨(i 0).val / 2000, hq⟩ (1 : Fin 2) * 128 + 128
    rw [e1]; omega

/-- The output array after the launch is the layer's function of the arrays as the launch finds them. -/
theorem final (c : Dev nD) :
    (dat0 V c).arrAt 5 cfg0.N = G (V c main_v21) (V c main_arg0) (V c main_v22) (V c main_v23) (V c main_v24) :=
  (dat0 V c).arrAt_eq_of_cover 5 _ (fun t _ => flushed_eq V c t) cover

end Cert.KernelIdeal.Layer1

end
-- ==== Proof.RefLayer1.lean ====
/-
  The reference's first layer is the same function.

  The reference computes relu(agg · Wlᵀ + b + x · Wrᵀ) on whole arrays: two dot_generals against the transposed
  weights, the bias broadcast over the rows, and a maximum with zero. Read at row r and column q, on the extended
  reals, each dot_general is the sum over the contracted coordinate, and the broadcast bias is b(q): the layer's
  function of (agg, x, Wlᵀ, Wrᵀ, b as a [1, 128] row).
-/
import proofs.«140991_j31748398252702_1_alg».proof.Proof.Gen.ReferenceIdeal.Read
import proofs.«140991_j31748398252702_1_alg».proof.Proof.Layer1Array
import Idealize.ShloMosaic.Lib.ValueLayout

noncomputable section

open scoped BigOperators

namespace Cert.Bridge

open Cert.ReferenceIdeal Cert.ReferenceIdeal.Read Idealize.ShloMosaic Idealize.ShloMosaic.ValueIdx

/-- The reference's first hidden array is the layer's function of its aggregate, the node features, the two
    transposed weight matrices and the bias as a row. -/
theorem layer1 (x0 : (⟨S100000x64, .f32⟩ : BufTy).Contents (Elt Ideal)) (x1 : (⟨S2x1000000, .i32⟩ : BufTy).Contents (Elt Ideal))
    (x3 : (⟨S128x64, .f32⟩ : BufTy).Contents (Elt Ideal)) (x4 : (⟨S128, .f32⟩ : BufTy).Contents (Elt Ideal))
    (x5 : (⟨S128x64, .f32⟩ : BufTy).Contents (Elt Ideal))
    (h : (⟨1, ![128]⟩ : Shape).ShapeCasts ⟨2, ![1, 128]⟩) :
    val_main_v30 (F := Ideal) x0 x1 x3 x4 x5
      = Cert.KernelIdeal.Layer1.G (val_main_v21 (F := Ideal) x0 x1) x0 (val_main_v22 (F := Ideal) x3) (val_main_v27 (F := Ideal) x5)
          (shapeCast ⟨2, ![1, 128]⟩ x4 h) := by
  funext i
  rw [val_main_v30_apply, val_main_v29_apply, val_main_v26_apply, val_main_v23_apply, val_main_v28_apply,
    val_main_v25_apply, val_main_v24_apply, val_main_call0_v0_apply, val_main_call0_cst_apply]
  have hl : ∀ k, lidx_main_v23 i k = ix2 (⟨(i 0).val, (i 0).isLt⟩ : Fin 100000) k :=
    fun k => funext fun a => match a with | ⟨0, _⟩ => rfl | ⟨1, _⟩ => rfl
  have hr : ∀ k, ridx_main_v23 i k = ix2 k (⟨(i 1).val, (i 1).isLt⟩ : Fin 128) :=
    fun k => funext fun a => match a with | ⟨0, _⟩ => rfl | ⟨1, _⟩ => rfl
  have hl' : ∀ k, lidx_main_v28 i k = ix2 (⟨(i 0).val, (i 0).isLt⟩ : Fin 100000) k :=
    fun k => funext fun a => match a with | ⟨0, _⟩ => rfl | ⟨1, _⟩ => rfl
  have hr' : ∀ k, ridx_main_v28 i k = ix2 k (⟨(i 1).val, (i 1).isLt⟩ : Fin 128) :=
    fun k => funext fun a => match a with | ⟨0, _⟩ => rfl | ⟨1, _⟩ => rfl
  have hb : shapeCast ⟨2, ![1, 128]⟩ x4 h (ix2 (0 : Fin 1) (⟨(i 1).val, (i 1).isLt⟩ : Fin 128))
      = x4 (idx_main_v24 (idx_main_v25 i)) :=
    (shapeCast_a_1a_apply x4 h 0 _).trans (congrArg x4 (funext fun a => match a with | ⟨0, _⟩ => rfl))
  simp only [hl, hr, hl', hr']
  unfold Cert.KernelIdeal.Layer1.G
  rw [hb]
  rfl

end Cert.Bridge

end
-- ==== Proof.Layer2Pay.lean ====
/-
  The second layer's body at an element.

  The body loads a [2000, 128] block of the aggregated hidden features and of the hidden features, the two [128, 128] weight
  matrices and the [1, 128] bias row, and stores max(a · Wl + b + x · Wr, 0). On the extended reals the changes of
  float format are the identity and each product into a zero accumulator is a plain sum over the contracted
  coordinate, so at row p and column q the stored value is
    max((Σ k, a(p,k) · Wl(k,q)) + b(0,q) + Σ k, x(p,k) · Wr(k,q), 0).
-/
import proofs.«140991_j31748398252702_1_alg».proof.Proof.Gen.KernelIdeal.Skeleton
import proofs.«140991_j31748398252702_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Layer2

open Cert.KernelIdeal Cert.KernelIdeal.Gen Idealize.ShloMosaic Idealize.ShloMosaic.ValueIdx

/-- The product's left index keeps the output's row. -/
theorem dot_row (j : S2000x128.Idx) (c : dot_S2000x128_S128x128_S2000x128_1_0_0_1_n_n.contr.Idx) :
    (dot_S2000x128_S128x128_S2000x128_1_0_0_1_n_n.lhsIdx j c 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The product's right index keeps the output's column. -/
theorem dot_col (j : S2000x128.Idx) (c : dot_S2000x128_S128x128_S2000x128_1_0_0_1_n_n.contr.Idx) :
    (dot_S2000x128_S128x128_S2000x128_1_0_0_1_n_n.rhsIdx j c 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A [2000, 128] block times a [128, 128] matrix into the zero accumulator, at (p, q). -/
theorem dot_apply (l : FVec Ideal S2000x128 .bf16) (r : FVec Ideal S128x128 .bf16) (p : Fin 2000) (q : Fin 128) :
    FloatOps.matmul dot_S2000x128_S128x128_S2000x128_1_0_0_1_n_n none l r (constant S2000x128 .f32 0x00000000#32) (ix2 p q)
      = ∑ k : Fin 128, l (ix2 p k) * r (ix2 k q) :=
  Cert.LibPlainDot.matmul_zero_apply dot_S2000x128_S128x128_S2000x128_1_0_0_1_n_n rfl rfl dot_row dot_col rfl rfl none l r p q

/-- The stored value at row p, column q. -/
theorem pay_apply (a x : Vec Ideal S2000x128 .f32) (wl wr : Vec Ideal S128x128 .f32) (b : Vec Ideal S1x128 .f32)
    (p : Fin 2000) (q : Fin 128) :
    k1_pay1 (F := Ideal) a x wl wr b (ix2 p q)
      = max (((∑ k : Fin 128, a (ix2 p k) * wl (ix2 k q)) + b (ix2 (0 : Fin 1) q)) + ∑ k : Fin 128, x (ix2 p k) * wr (ix2 k q))
          (Ideal.ofBits .f32 0x00000000#32) := by
  unfold k1_pay1
  simp only [shapeCast_self]
  rw [maximumf_apply, addf_apply, addf_apply, broadcast_apply]
  simp only [matmul]
  rw [dot_apply, dot_apply, broadcastTo_1b_ab_apply]
  rfl

end Cert.KernelIdeal.Layer2

end
-- ==== Proof.Layer2Array.lean ====
/-
  The second layer's output array after its launch.

  The launch has 50 grid points; point t stages rows 2000·t … 2000·t + 1999 of the aggregated hidden features and of the
  hidden features, the two weight matrices and the bias row whole, and writes back rows 2000·t … 2000·t + 1999 of the
  output. Each row of the output depends only on the same row of the two feature arrays, so what point t writes back is
  block t of ONE function of the arrays as the launch finds them:
    out(r, q) = max((Σ k, a(r,k) · Wl(k,q)) + b(0,q) + Σ k, x(r,k) · Wr(k,q), 0).
  The 50 blocks tile the 100000 rows (row r lies in block r / 2000), so the output array ends holding that function.
  Everything is stated for arbitrary contents V at the launch's entry.
-/
import proofs.«140991_j31748398252702_1_alg».proof.Proof.Gen.KernelIdeal.Frame
import proofs.«140991_j31748398252702_1_alg».proof.Proof.Layer2Pay

set_option maxRecDepth 16384

noncomputable section

open scoped BigOperators

namespace Cert.KernelIdeal.Layer2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The layer as one function of whole arrays: row r, column q. -/
def G (A X : S100000x128.Idx → Elt Ideal .f32) (Wl Wr : S128x128.Idx → Elt Ideal .f32) (B : S1x128.Idx → Elt Ideal .f32) :
    S100000x128.Idx → Elt Ideal .f32 := fun i =>
  max (((∑ k : Fin 128, A (ix2 ⟨(i 0).val, (i 0).isLt⟩ k) * Wl (ix2 k ⟨(i 1).val, (i 1).isLt⟩))
        + B (ix2 (0 : Fin 1) ⟨(i 1).val, (i 1).isLt⟩))
      + ∑ k : Fin 128, X (ix2 ⟨(i 0).val, (i 0).isLt⟩ k) * Wr (ix2 k ⟨(i 1).val, (i 1).isLt⟩))
    (Ideal.ofBits .f32 0x00000000#32)

/-- The printed index maps over the grid: the two feature windows and the output move one block of rows per point,
    the weights and the bias stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 50 :=
  Nat.lt_of_lt_of_eq t.isLt (show cfg1.N = 50 from N_1)

theorem row_lt (t : Fin cfg1.N) (p : Fin 2000) : t.val * 2000 + p.val < 100000 := by
  have := point_lt t; have := p.isLt; omega

/-- Point t's block of the aggregated hidden features is rows 2000·t … of the array. -/
theorem read_agg (c : Dev nD) (t : Fin cfg1.N) (p : Fin 2000) (k : Fin 128) :
    iblk1 V c 0 t (ix2 p k) = (V c main_v43 : S100000x128.Idx → Elt Ideal .f32) (ix2 ⟨t.val * 2000 + p.val, row_lt t p⟩ k) := by
  obtain ⟨e0, e1, -⟩ := idx_facts t
  show (V c main_v43 : S100000x128.Idx → Elt Ideal .f32) (((cfg1.win 0).blk t).view.emb (ix2 p k)) = _
  refine congrArg (V c main_v43 : S100000x128.Idx → Elt Ideal .f32) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 128 + 1 * k.val = k.val; rw [e1]; omega

/-- Point t's block of the hidden features is rows 2000·t … of the array. -/
theorem read_x (c : Dev nD) (t : Fin cfg1.N) (p : Fin 2000) (k : Fin 128) :
    iblk1 V c 1 t (ix2 p k) = (V c main_v25 : S100000x128.Idx → Elt Ideal .f32) (ix2 ⟨t.val * 2000 + p.val, row_lt t p⟩ k) := by
  obtain ⟨-, -, e0, e1, -⟩ := idx_facts t
  show (V c main_v25 : S100000x128.Idx → Elt Ideal .f32) (((cfg1.win 1).blk t).view.emb (ix2 p k)) = _
  refine congrArg (V c main_v25 : S100000x128.Idx → Elt Ideal .f32) (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 128 + 1 * k.val = k.val; rw [e1]; omega

/-- The left weight matrix is staged whole. -/
theorem read_wl (c : Dev nD) (t : Fin cfg1.N) (y : S128x128.Idx) :
    iblk1 V c 2 t y = (V c main_v44 : S128x128.Idx → Elt Ideal .f32) y := by
  obtain ⟨-, -, -, -, e0, e1, -⟩ := idx_facts t
  show (V c main_v44 : S128x128.Idx → Elt Ideal .f32) (((cfg1.win 2).blk t).view.emb y) = _
  refine congrArg (V c main_v44 : S128x128.Idx → Elt Ideal .f32) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The bias row is staged whole. -/
theorem read_b (c : Dev nD) (t : Fin cfg1.N) (y : S1x128.Idx) :
    iblk1 V c 3 t y = (V c main_v46 : S1x128.Idx → Elt Ideal .f32) y := by
  obtain ⟨-, -, -, -, -, -, e0, e1, -⟩ := idx_facts t
  show (V c main_v46 : S1x128.Idx → Elt Ideal .f32) (((cfg1.win 3).blk t).view.emb y) = _
  refine congrArg (V c main_v46 : S1x128.Idx → Elt Ideal .f32) (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The right weight matrix is staged whole. -/
theorem read_wr (c : Dev nD) (t : Fin cfg1.N) (y : S128x128.Idx) :
    iblk1 V c 4 t y = (V c main_v45 : S128x128.Idx → Elt Ideal .f32) y := by
  obtain ⟨-, -, -, -, -, -, -, -, e0, e1, -⟩ := idx_facts t
  show (V c main_v45 : S128x128.Idx → Elt Ideal .f32) (((cfg1.win 4).blk t).view.emb y) = _
  refine congrArg (V c main_v45 : S128x128.Idx → Elt Ideal .f32) (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- What point t writes back is block t of the layer's function of the arrays as the launch finds them. -/
theorem flushed_eq (c : Dev nD) (t : Fin cfg1.N) :
    (dat1 V c).flushed 5 t = ((cfg1.win 5).blk t).view.read (Elt Ideal)
      (G (V c main_v43) (V c main_v25) (V c main_v44) (V c main_v45) (V c main_v46)) := by
  show (cfg1.win 5).cut (grid1.coords t) ((dat1 V c).after 5 t) = _
  rw [after1_5]
  unfold out1_5
  rw [View.canon_unit_zero zeros]
  simp only [View.ld_unit_zero (S := S2000x128) zeros, View.ld_unit_zero (S := S128x128) zeros, View.ld_unit_zero (S := S1x128) zeros]
  funext j
  obtain ⟨-, -, -, -, -, -, -, -, -, -, e0, e1⟩ := idx_facts t
  have hj0 : (j 0).val < 2000 := (j 0).isLt
  have hj1 : (j 1).val < 128 := (j 1).isLt
  have hj : j = ix2 (⟨(j 0).val, hj0⟩ : Fin 2000) (⟨(j 1).val, hj1⟩ : Fin 128) :=
    funext fun a => match a with | ⟨0, _⟩ => rfl | ⟨1, _⟩ => rfl
  have hemb : ((cfg1.win 5).blk t).view.emb j
      = ix2 (⟨t.val * 2000 + (j 0).val, row_lt t ⟨(j 0).val, hj0⟩⟩ : Fin 100000) (⟨(j 1).val, hj1⟩ : Fin 128) := by
    funext a; apply Fin.ext
    match a with
    | ⟨0, _⟩ => show win1_5.index t (0 : Fin 2) * 2000 + 1 * (j 0).val = t.val * 2000 + (j 0).val; rw [e0]; omega
    | ⟨1, _⟩ => show win1_5.index t (1 : Fin 2) * 128 + 1 * (j 1).val = (j 1).val; rw [e1]; omega
  show k1_pay1 (iblk1 V c 0 t) (iblk1 V c 1 t) (iblk1 V c 2 t) (iblk1 V c 4 t) (iblk1 V c 3 t) j
      = G (V c main_v43) (V c main_v25) (V c main_v44) (V c main_v45) (V c main_v46) (((cfg1.win 5).blk t).view.emb j)
  rw [hemb]
  refine (congrArg (k1_pay1 (iblk1 V c 0 t) (iblk1 V c 1 t) (iblk1 V c 2 t) (iblk1 V c 4 t) (iblk1 V c 3 t)) hj).trans ?_
  refine (pay_apply _ _ _ _ _ _ _).trans ?_
  simp only [read_agg, read_x, read_wl, read_b, read_wr]
  rfl

/-- An index of the output array is in point t's block iff each coordinate is in the block's range on its axis. -/
theorem mem_blk (t : Fin cfg1.N) (i : S100000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v47).slice (win1_5.rect t)).set ↔ _
  rw [View.set_slice_whole, Rect.mem_set_unit]
  exact Iff.rfl

/-- Every row of the output lies in some point's block: row r in block r / 2000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hq : (i 0).val / 2000 < cfg1.N := by rw [show cfg1.N = 50 from N_1]; omega
  refine ⟨⟨(i 0).val / 2000, hq⟩, flush1_5 _, ?_⟩
  rw [mem_blk]
  obtain ⟨-, -, -, -, -, -, -, -, -, -, e0, e1⟩ := idx_facts ⟨(i 0).val / 2000, hq⟩
  intro a
  match a with
  | ⟨0, _⟩ =>
    show win1_5.index ⟨(i 0).val / 2000, hq⟩ (0 : Fin 2) * 2000 ≤ (i 0).val
      ∧ (i 0).val < win1_5.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, hq⟩ (1 : Fin 2) * 128 ≤ (i 1).val
      ∧ (i 1).val < win1_5.index ⟨(i 0).val / 2000, hq⟩ (1 : Fin 2) * 128 + 128
    rw [e1]; omega

/-- The output array after the launch is the layer's function of the arrays as the launch finds them. -/
theorem final (c : Dev nD) :
    (dat1 V c).arrAt 5 cfg1.N = G (V c main_v43) (V c main_v25) (V c main_v44) (V c main_v45) (V c main_v46) :=
  (dat1 V c).arrAt_eq_of_cover 5 _ (fun t _ => flushed_eq V c t) cover

end Cert.KernelIdeal.Layer2

end
-- ==== Proof.RefLayer2.lean ====
/-
  The reference's second layer is the same function.

  The reference computes relu(agg₂ · Wlᵀ + b + h · Wrᵀ) on whole arrays, h the first hidden array and agg₂ its
  mean over incoming edges: two dot_generals against the transposed weights, the bias broadcast over the rows, and a
  maximum with zero. Read at row r and column q, on the extended reals, each dot_general is the sum over the
  contracted coordinate and the broadcast bias is b(q): the layer's function of (agg₂, h, Wlᵀ, Wrᵀ, b as a
  [1, 128] row).
-/
import proofs.«140991_j31748398252702_1_alg».proof.Proof.Gen.ReferenceIdeal.Read
import proofs.«140991_j31748398252702_1_alg».proof.Proof.Layer2Array
import Idealize.ShloMosaic.Lib.ValueLayout

noncomputable section

open scoped BigOperators

namespace Cert.Bridge

open Cert.ReferenceIdeal Cert.ReferenceIdeal.Read Idealize.ShloMosaic Idealize.ShloMosaic.ValueIdx

/-- The reference's second hidden array is the layer's function of its aggregate of the first hidden array, the first
    hidden array, the two transposed weight matrices and the bias as a row. -/
theorem layer2 (x0 : (⟨S100000x64, .f32⟩ : BufTy).Contents (Elt Ideal)) (x1 : (⟨S2x1000000, .i32⟩ : BufTy).Contents (Elt Ideal))
    (x3 : (⟨S128x64, .f32⟩ : BufTy).Contents (Elt Ideal)) (x4 : (⟨S128, .f32⟩ : BufTy).Contents (Elt Ideal))
    (x5 : (⟨S128x64, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (h : (⟨1, ![128]⟩ : Shape).ShapeCasts ⟨2, ![1, 128]⟩) :
    val_main_v57 (F := Ideal) x0 x1 x3 x4 x5 x6 x7 x8
      = Cert.KernelIdeal.Layer2.G (val_main_v48 (F := Ideal) x0 x1 x3 x4 x5) (val_main_v30 (F := Ideal) x0 x1 x3 x4 x5)
          (val_main_v49 (F := Ideal) x6) (val_main_v54 (F := Ideal) x8) (shapeCast ⟨2, ![1, 128]⟩ x7 h) := by
  funext i
  rw [val_main_v57_apply, val_main_v56_apply, val_main_v53_apply, val_main_v50_apply, val_main_v55_apply,
    val_main_v52_apply, val_main_v51_apply, val_main_call1_v0_apply, val_main_call1_cst_apply]
  have hl : ∀ k, lidx_main_v50 i k = ix2 (⟨(i 0).val, (i 0).isLt⟩ : Fin 100000) k :=
    fun k => funext fun a => match a with | ⟨0, _⟩ => rfl | ⟨1, _⟩ => rfl
  have hr : ∀ k, ridx_main_v50 i k = ix2 k (⟨(i 1).val, (i 1).isLt⟩ : Fin 128) :=
    fun k => funext fun a => match a with | ⟨0, _⟩ => rfl | ⟨1, _⟩ => rfl
  have hl' : ∀ k, lidx_main_v55 i k = ix2 (⟨(i 0).val, (i 0).isLt⟩ : Fin 100000) k :=
    fun k => funext fun a => match a with | ⟨0, _⟩ => rfl | ⟨1, _⟩ => rfl
  have hr' : ∀ k, ridx_main_v55 i k = ix2 k (⟨(i 1).val, (i 1).isLt⟩ : Fin 128) :=
    fun k => funext fun a => match a with | ⟨0, _⟩ => rfl | ⟨1, _⟩ => rfl
  have hb : shapeCast ⟨2, ![1, 128]⟩ x7 h (ix2 (0 : Fin 1) (⟨(i 1).val, (i 1).isLt⟩ : Fin 128))
      = x7 (idx_main_v51 (idx_main_v52 i)) :=
    (shapeCast_a_1a_apply x7 h 0 _).trans (congrArg x7 (funext fun a => match a with | ⟨0, _⟩ => rfl))
  simp only [hl, hr, hl', hr']
  unfold Cert.KernelIdeal.Layer2.G
  rw [hb]
  rfl

end Cert.Bridge

end
-- ==== Proof.Host1.lean ====
/-
  The contents after the first launch, at the second launch's entry, and after the second launch.

  The first launch writes only its output array, which ends holding the first layer's function of what the launch
  found: the reference's first hidden array. The second stretch of host operations aggregates that array over the
  edges exactly as the reference does and lays out the second layer's weights and bias; the second launch then leaves
  the reference's second hidden array. Every other buffer is carried through unchanged.
-/
import proofs.«140991_j31748398252702_1_alg».proof.Proof.Host0
import proofs.«140991_j31748398252702_1_alg».proof.Proof.RefLayer1
import proofs.«140991_j31748398252702_1_alg».proof.Proof.RefLayer2

set_option maxRecDepth 16384

noncomputable section

namespace Cert.KernelIdeal.Stretch

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The launch memory's arguments on core c. -/
abbrev X0 (c : Dev nD) := m ((c : Thread nD τ).loc main_arg0)
abbrev X1 (c : Dev nD) := m ((c : Thread nD τ).loc main_arg1)
abbrev X2 (c : Dev nD) := m ((c : Thread nD τ).loc main_arg2)
abbrev X3 (c : Dev nD) := m ((c : Thread nD τ).loc main_arg3)
abbrev X4 (c : Dev nD) := m ((c : Thread nD τ).loc main_arg4)
abbrev X5 (c : Dev nD) := m ((c : Thread nD τ).loc main_arg5)
abbrev X6 (c : Dev nD) := m ((c : Thread nD τ).loc main_arg6)
abbrev X7 (c : Dev nD) := m ((c : Thread nD τ).loc main_arg7)
abbrev X8 (c : Dev nD) := m ((c : Thread nD τ).loc main_arg8)
abbrev X9 (c : Dev nD) := m ((c : Thread nD τ).loc main_arg9)
abbrev X10 (c : Dev nD) := m ((c : Thread nD τ).loc main_arg10)

/-! ## After the first launch -/

/-- The first launch's output array is the reference's first hidden array. -/
theorem w2_h1 (c : Dev nD) : W2 m ρ c (Proc.devRef .tc main_v25)
    = Cert.ReferenceIdeal.Read.val_main_v30 (F := Ideal) (X0 m c) (X1 m c) (X3 m c) (X4 m c) (X5 m c) := by
  refine (W2_arr m ρ c 5).trans ((Cert.KernelIdeal.Layer1.final (V1 m ρ) c).trans ?_)
  have e0 : V1 m ρ c main_v21 = _ := w1_agg m ρ c
  have e1 : V1 m ρ c main_arg0 = _ := w1_x m ρ c
  have e2 : V1 m ρ c main_v22 = _ := w1_wl m ρ c
  have e3 : V1 m ρ c main_v23 = _ := w1_wr m ρ c
  have e4 : V1 m ρ c main_v24 = _ := w1_b m ρ c
  rw [e0, e1, e2, e3, e4]
  exact (Cert.Bridge.layer1 _ _ _ _ _ _).symm

theorem w2_src (c : Dev nD) : W2 m ρ c (Proc.devRef .tc main_v1) = Cert.ReferenceIdeal.Read.val_main_v1 (F := Ideal) (X1 m c) :=
  (W2_of_ne m ρ c main_v1 (by decide)).trans (w1_src m ρ c)
theorem w2_dst (c : Dev nD) : W2 m ρ c (Proc.devRef .tc main_v3) = Cert.ReferenceIdeal.Read.val_main_v3 (F := Ideal) (X1 m c) :=
  (W2_of_ne m ρ c main_v3 (by decide)).trans (w1_dst m ρ c)
theorem w2_arg2 (c : Dev nD) : W2 m ρ c (Proc.devRef .tc main_arg2) = X2 m c := (W2_of_ne m ρ c main_arg2 (by decide)).trans (w1_arg2 m ρ c)
theorem w2_arg6 (c : Dev nD) : W2 m ρ c (Proc.devRef .tc main_arg6) = X6 m c := (W2_of_ne m ρ c main_arg6 (by decide)).trans (w1_arg6 m ρ c)
theorem w2_arg7 (c : Dev nD) : W2 m ρ c (Proc.devRef .tc main_arg7) = X7 m c := (W2_of_ne m ρ c main_arg7 (by decide)).trans (w1_arg7 m ρ c)
theorem w2_arg8 (c : Dev nD) : W2 m ρ c (Proc.devRef .tc main_arg8) = X8 m c := (W2_of_ne m ρ c main_arg8 (by decide)).trans (w1_arg8 m ρ c)
theorem w2_arg9 (c : Dev nD) : W2 m ρ c (Proc.devRef .tc main_arg9) = X9 m c := (W2_of_ne m ρ c main_arg9 (by decide)).trans (w1_arg9 m ρ c)
theorem w2_arg10 (c : Dev nD) : W2 m ρ c (Proc.devRef .tc main_arg10) = X10 m c := (W2_of_ne m ρ c main_arg10 (by decide)).trans (w1_arg10 m ρ c)

/-! ## At the second launch's entry -/

set_option maxHeartbeats 4000000 in
/-- The first hidden array aggregated over the edges. -/
theorem w3_agg (c : Dev nD) : W3 m ρ c (Proc.devRef .tc main_v43)
    = Cert.ReferenceIdeal.Read.val_main_v48 (F := Ideal) (X0 m c) (X1 m c) (X3 m c) (X4 m c) (X5 m c) := by
  show StableHlo.after hostOps1 (W2 m ρ c) (Proc.devRef .tc main_v43) = _
  after_results_simp
  rw [w2_h1, w2_src, w2_dst]
  rfl

/-- The first hidden array itself, carried through. -/
theorem w3_h1 (c : Dev nD) : W3 m ρ c (Proc.devRef .tc main_v25)
    = Cert.ReferenceIdeal.Read.val_main_v30 (F := Ideal) (X0 m c) (X1 m c) (X3 m c) (X4 m c) (X5 m c) := by
  show StableHlo.after hostOps1 (W2 m ρ c) (Proc.devRef .tc main_v25) = _
  after_results_simp
  exact w2_h1 m ρ c

/-- The second layer's left weight matrix, transposed. -/
theorem w3_wl (c : Dev nD) : W3 m ρ c (Proc.devRef .tc main_v44) = Cert.ReferenceIdeal.Read.val_main_v49 (F := Ideal) (X6 m c) := by
  show StableHlo.after hostOps1 (W2 m ρ c) (Proc.devRef .tc main_v44) = _
  after_results_simp
  rw [w2_arg6]
  rfl

/-- The second layer's right weight matrix, transposed. -/
theorem w3_wr (c : Dev nD) : W3 m ρ c (Proc.devRef .tc main_v45) = Cert.ReferenceIdeal.Read.val_main_v54 (F := Ideal) (X8 m c) := by
  show StableHlo.after hostOps1 (W2 m ρ c) (Proc.devRef .tc main_v45) = _
  after_results_simp
  rw [w2_arg8]
  rfl

/-- The second layer's bias as a [1, 128] row. -/
theorem w3_b (c : Dev nD) : W3 m ρ c (Proc.devRef .tc main_v46) = shapeCast S1x128 (X7 m c) Facts₀.shapeCasts_S128_S1x128 := by
  show StableHlo.after hostOps1 (W2 m ρ c) (Proc.devRef .tc main_v46) = _
  after_results_simp
  rw [w2_arg7]
  rfl

theorem w3_arg2 (c : Dev nD) : W3 m ρ c (Proc.devRef .tc main_arg2) = X2 m c := by
  show StableHlo.after hostOps1 (W2 m ρ c) (Proc.devRef .tc main_arg2) = _
  after_results_simp
  exact w2_arg2 m ρ c
theorem w3_arg9 (c : Dev nD) : W3 m ρ c (Proc.devRef .tc main_arg9) = X9 m c := by
  show StableHlo.after hostOps1 (W2 m ρ c) (Proc.devRef .tc main_arg9) = _
  after_results_simp
  exact w2_arg9 m ρ c
theorem w3_arg10 (c : Dev nD) : W3 m ρ c (Proc.devRef .tc main_arg10) = X10 m c := by
  show StableHlo.after hostOps1 (W2 m ρ c) (Proc.devRef .tc main_arg10) = _
  after_results_simp
  exact w2_arg10 m ρ c

/-! ## After the second launch -/

/-- The second launch's output array is the reference's second hidden array. -/
theorem w4_h2 (c : Dev nD) : W4 m ρ c (Proc.devRef .tc main_v47)
    = Cert.ReferenceIdeal.Read.val_main_v57 (F := Ideal) (X0 m c) (X1 m c) (X3 m c) (X4 m c) (X5 m c) (X6 m c) (X7 m c) (X8 m c) := by
  refine (W4_arr m ρ c 5).trans ((Cert.KernelIdeal.Layer2.final (V3 m ρ) c).trans ?_)
  have e0 : V3 m ρ c main_v43 = _ := w3_agg m ρ c
  have e1 : V3 m ρ c main_v25 = _ := w3_h1 m ρ c
  have e2 : V3 m ρ c main_v44 = _ := w3_wl m ρ c
  have e3 : V3 m ρ c main_v45 = _ := w3_wr m ρ c
  have e4 : V3 m ρ c main_v46 = _ := w3_b m ρ c
  rw [e0, e1, e2, e3, e4]
  exact (Cert.Bridge.layer2 _ _ _ _ _ _ _ _ _).symm

theorem w4_arg2 (c : Dev nD) : W4 m ρ c (Proc.devRef .tc main_arg2) = X2 m c := (W4_of_ne m ρ c main_arg2 (by decide)).trans (w3_arg2 m ρ c)
theorem w4_arg9 (c : Dev nD) : W4 m ρ c (Proc.devRef .tc main_arg9) = X9 m c := (W4_of_ne m ρ c main_arg9 (by decide)).trans (w3_arg9 m ρ c)
theorem w4_arg10 (c : Dev nD) : W4 m ρ c (Proc.devRef .tc main_arg10) = X10 m c := (W4_of_ne m ρ c main_arg10 (by decide)).trans (w3_arg10 m ρ c)

end Cert.KernelIdeal.Stretch

end
-- ==== Proof.HeadPay.lean ====
/-
  The head's body at an element.

  The body loads the pooled features [256, 128], the transposed output weights [128, 2] and the bias row [1, 2],
  forms the logits z = pooled · W + b, and stores the row-wise log-softmax
    out(p, q) = (z(p,q) − M(p)) − log Σ k, exp(z(p,k) − M(p)),     M(p) = max over the row p of z,
  the maximum taken as a fold from −∞ over the row's two entries. The tail is stated as a function of an
  arbitrary logits array, so that it can be compared with the reference's log-softmax of the same array.
-/
import proofs.«140991_j31748398252702_1_alg».proof.Proof.Gen.KernelIdeal.Skeleton
import proofs.«140991_j31748398252702_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Head

open Cert.KernelIdeal Cert.KernelIdeal.Gen Idealize.ShloMosaic Idealize.ShloMosaic.ValueIdx

/-! ## Two column layouts read at an index -/

/-- An [a] array cast to [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- An [a, 1] column broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body, in two pieces -/

/-- The logits as the body forms them. -/
def logits (P : Vec Ideal S256x128 .f32) (W : Vec Ideal S128x2 .f32) (B : Vec Ideal S1x2 .f32) : FVec Ideal S256x2 .f32 :=
  addf (matmul dot_S256x128_S128x2_S256x2_1_0_0_1_n_n none (truncf .bf16 P Facts₀.bitsLt_bf16_f32 : FVec Ideal S256x128 .bf16)
      (truncf .bf16 W Facts₀.bitsLt_bf16_f32 : FVec Ideal S128x2 .bf16) (constant (F := Ideal) S256x2 .f32 0x00000000#32))
    (broadcastTo S256x2 B Facts₀.broadcasts_S1x2_S256x2)

/-- The logits' row maxima, as a [256, 2] array constant along each row. -/
def rowMaxB (Z : FVec Ideal S256x2 .f32) : FVec Ideal S256x2 .f32 :=
  broadcastTo S256x2 (shapeCast S256x1
    (multiReduction (F := Ideal) .maximumf [1] S256 Z 0xFF800000#32 Facts₀.reduces_S256x2_S256 (.inl rfl) rfl)
    Facts₀.shapeCasts_S256_S256x1) Facts₀.broadcasts_S256x1_S256x2

/-- The body's log-softmax of a logits array. -/
def lsm (Z : FVec Ideal S256x2 .f32) : FVec Ideal S256x2 .f32 :=
  subf (subf Z (rowMaxB Z))
    (broadcastTo S256x2 (log (shapeCast S256x1
      (multiReduction (F := Ideal) .add [1] S256 (exp (subf Z (rowMaxB Z))) 0x00000000#32 Facts₀.reduces_S256x2_S256 (.inl rfl) rfl)
      Facts₀.shapeCasts_S256_S256x1)) Facts₀.broadcasts_S256x1_S256x2)

/-- The stored value is the log-softmax of the logits. -/
theorem pay_eq (P : Vec Ideal S256x128 .f32) (W : Vec Ideal S128x2 .f32) (B : Vec Ideal S1x2 .f32) :
    k2_pay1 (F := Ideal) P W B = lsm (logits P W B) := by
  unfold k2_pay1 lsm rowMaxB logits
  simp only [shapeCast_self]

/-! ## The pieces at an element -/

theorem dot_row (j : S256x2.Idx) (c : dot_S256x128_S128x2_S256x2_1_0_0_1_n_n.contr.Idx) :
    (dot_S256x128_S128x2_S256x2_1_0_0_1_n_n.lhsIdx j c 0).val = (j 0).val := by
  unfold DotDims.lhsIdx
  rw [dif_neg (show ¬(0 : Fin S256x128.rank) ∈ dot_S256x128_S128x2_S256x2_1_0_0_1_n_n.lhsBatch by decide),
    dif_pos (show (0 : Fin S256x128.rank) ∈ dot_S256x128_S128x2_S256x2_1_0_0_1_n_n.lhsNonContracting by decide)]
  rfl

theorem dot_col (j : S256x2.Idx) (c : dot_S256x128_S128x2_S256x2_1_0_0_1_n_n.contr.Idx) :
    (dot_S256x128_S128x2_S256x2_1_0_0_1_n_n.rhsIdx j c 1).val = (j 1).val := by
  unfold DotDims.rhsIdx
  rw [dif_neg (show ¬(1 : Fin S128x2.rank) ∈ dot_S256x128_S128x2_S256x2_1_0_0_1_n_n.rhsBatch by decide),
    dif_pos (show (1 : Fin S128x2.rank) ∈ dot_S256x128_S128x2_S256x2_1_0_0_1_n_n.rhsNonContracting by decide)]
  rfl

/-- The logits at row p, column q. -/
theorem logits_apply (P : Vec Ideal S256x128 .f32) (W : Vec Ideal S128x2 .f32) (B : Vec Ideal S1x2 .f32) (p : Fin 256) (q : Fin 2) :
    logits P W B (ix2 p q) = (∑ k : Fin 128, P (ix2 p k) * W (ix2 k q)) + B (ix2 (0 : Fin 1) q) := by
  unfold logits
  rw [addf_apply]
  simp only [matmul]
  rw [Cert.LibPlainDot.matmul_zero_apply dot_S256x128_S128x2_S256x2_1_0_0_1_n_n rfl rfl dot_row dot_col rfl rfl,
    broadcastTo_1b_ab_apply]
  rfl

/-- A row's maximum: the fold of max from −∞ over the row's two entries. -/
def rowMax (Z : FVec Ideal S256x2 .f32) (p : Fin 256) : EReal :=
  (Finset.univ : Finset (Fin 2)).fold max (Ideal.ofBits .f32 0xFF800000#32) (fun k => Z (ix2 p k))

/-- The lane reduction's inserted index is (p, k). -/
theorem lift_row (p : Fin 256) (k : Fin 2) :
    (Facts₀.reduces_S256x2_S256 : S256x2.Reduces [1] S256).lift (ix1 p) k = ix2 p k :=
  funext fun a => Fin.ext (match a with | ⟨0, _⟩ => rfl | ⟨1, _⟩ => rfl)

/-- The row maxima array at (p, q) is row p's maximum. -/
theorem rowMaxB_apply (Z : FVec Ideal S256x2 .f32) (p : Fin 256) (q : Fin 2) : rowMaxB Z (ix2 p q) = rowMax Z p := by
  unfold rowMaxB
  rw [broadcastTo_a1_ab_apply, shapeCast_a_a1_apply]
  refine (Ideal.multiReduction_maximumf_single Z 0xFF800000#32 Facts₀.reduces_S256x2_S256 (.inl rfl) rfl (ix1 p)).trans ?_
  unfold rowMax
  exact congrArg (fun f => Finset.fold max (Ideal.ofBits .f32 0xFF800000#32) f Finset.univ)
    (funext fun k => congrArg Z (lift_row p k))

/-- The body's log-softmax at row p, column q. -/
theorem lsm_apply (Z : FVec Ideal S256x2 .f32) (p : Fin 256) (q : Fin 2) :
    lsm Z (ix2 p q) = (Z (ix2 p q) - rowMax Z p) - Ideal.log (∑ k : Fin 2, Ideal.exp (Z (ix2 p k) - rowMax Z p)) := by
  unfold lsm
  rw [subf_apply, subf_apply, rowMaxB_apply, broadcastTo_a1_ab_apply]
  show _ - Ideal.log (shapeCast S256x1 _ Facts₀.shapeCasts_S256_S256x1 (ix2 p (0 : Fin 1))) = _
  rw [shapeCast_a_a1_apply]
  refine congrArg (fun s => (Z (ix2 p q) - rowMax Z p) - Ideal.log s) ?_
  refine (Ideal.multiReduction_add_single (exp (subf Z (rowMaxB Z))) 0x00000000#32 Facts₀.reduces_S256x2_S256
    (.inl rfl) rfl (ix1 p)).trans ?_
  refine Finset.sum_congr rfl fun k _ => ?_
  have hk := lift_row p k
  rw [hk]
  show Ideal.exp (Z (ix2 p k) - rowMaxB Z (ix2 p k)) = _
  exact congrArg (fun v => Ideal.exp (Z (ix2 p k) - v)) (rowMaxB_apply Z p k)

end Cert.KernelIdeal.Head

end
-- ==== Proof.HeadArray.lean ====
/-
  The head's output array after its launch.

  The launch has one grid point, which stages the pooled features, the transposed output weights and the bias row
  whole and writes back the whole [256, 2] output. So each staged block is the array as the launch finds it, and the
  output array ends holding the body's value of those three arrays. Stated for arbitrary contents V at the launch's
  entry.
-/
import proofs.«140991_j31748398252702_1_alg».proof.Proof.Gen.KernelIdeal.Frame
import proofs.«140991_j31748398252702_1_alg».proof.Proof.HeadPay

set_option maxRecDepth 16384

noncomputable section

open scoped BigOperators

namespace Cert.KernelIdeal.Head

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the one-point grid: every window's block index is (0, 0). -/
theorem idx_facts : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- The pooled features are staged whole. -/
theorem read_p (c : Dev nD) (t : Fin cfg2.N) (y : S256x128.Idx) :
    iblk2 V c 0 t y = (V c main_v58 : S256x128.Idx → Elt Ideal .f32) y := by
  obtain ⟨e0, e1, -⟩ := idx_facts t
  show (V c main_v58 : S256x128.Idx → Elt Ideal .f32) (((cfg2.win 0).blk t).view.emb y) = _
  refine congrArg (V c main_v58 : S256x128.Idx → Elt Ideal .f32) (funext fun a => Fin.ext ?_)
  match a with
  | ⟨0, _⟩ => show win2_0.index t (0 : Fin 2) * 256 + 1 * (y 0).val = (y 0).val; rw [e0]; omega
  | ⟨1, _⟩ => show win2_0.index t (1 : Fin 2) * 128 + 1 * (y 1).val = (y 1).val; rw [e1]; omega

/-- The transposed output weights are staged whole. -/
theorem read_w (c : Dev nD) (t : Fin cfg2.N) (y : S128x2.Idx) :
    iblk2 V c 1 t y = (V c main_v59 : S128x2.Idx → Elt Ideal .f32) y := by
  obtain ⟨-, -, e0, e1, -⟩ := idx_facts t
  show (V c main_v59 : S128x2.Idx → Elt Ideal .f32) (((cfg2.win 1).blk t).view.emb y) = _
  refine congrArg (V c main_v59 : S128x2.Idx → Elt Ideal .f32) (funext fun a => Fin.ext ?_)
  match a with
  | ⟨0, _⟩ => show win2_1.index t (0 : Fin 2) * 128 + 1 * (y 0).val = (y 0).val; rw [e0]; omega
  | ⟨1, _⟩ => show win2_1.index t (1 : Fin 2) * 2 + 1 * (y 1).val = (y 1).val; rw [e1]; omega

/-- The bias row is staged whole. -/
theorem read_b (c : Dev nD) (t : Fin cfg2.N) (y : S1x2.Idx) :
    iblk2 V c 2 t y = (V c main_v60 : S1x2.Idx → Elt Ideal .f32) y := by
  obtain ⟨-, -, -, -, e0, e1, -⟩ := idx_facts t
  show (V c main_v60 : S1x2.Idx → Elt Ideal .f32) (((cfg2.win 2).blk t).view.emb y) = _
  refine congrArg (V c main_v60 : S1x2.Idx → Elt Ideal .f32) (funext fun a => Fin.ext ?_)
  match a with
  | ⟨0, _⟩ => show win2_2.index t (0 : Fin 2) * 1 + 1 * (y 0).val = (y 0).val; rw [e0]; omega
  | ⟨1, _⟩ => show win2_2.index t (1 : Fin 2) * 2 + 1 * (y 1).val = (y 1).val; rw [e1]; omega

/-- The body's value of the three arrays as the launch finds them. -/
abbrev G (c : Dev nD) : S256x2.Idx → Elt Ideal .f32 :=
  k2_pay1 (F := Ideal) (V c main_v58 : S256x128.Idx → Elt Ideal .f32) (V c main_v59 : S128x2.Idx → Elt Ideal .f32)
    (V c main_v60 : S1x2.Idx → Elt Ideal .f32)

/-- What the one point writes back is the (whole) block of that value. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero zeros]
  simp only [View.ld_unit_zero (S := S256x128) zeros, View.ld_unit_zero (S := S128x2) zeros, View.ld_unit_zero (S := S1x2) zeros]
  have hp : (iblk2 V c 0 t : S256x128.Idx → Elt Ideal .f32) = (V c main_v58 : S256x128.Idx → Elt Ideal .f32) := funext (read_p V c t)
  have hw : (iblk2 V c 1 t : S128x2.Idx → Elt Ideal .f32) = (V c main_v59 : S128x2.Idx → Elt Ideal .f32) := funext (read_w V c t)
  have hb : (iblk2 V c 2 t : S1x2.Idx → Elt Ideal .f32) = (V c main_v60 : S1x2.Idx → Elt Ideal .f32) := funext (read_b V c t)
  funext j
  obtain ⟨-, -, -, -, -, -, e0, e1⟩ := idx_facts t
  show k2_pay1 (F := Ideal) (iblk2 V c 0 t : S256x128.Idx → Elt Ideal .f32) (iblk2 V c 1 t : S128x2.Idx → Elt Ideal .f32)
      (iblk2 V c 2 t : S1x2.Idx → Elt Ideal .f32) j = G V c (((cfg2.win 3).blk t).view.emb j)
  rw [hp, hw, hb]
  refine congrArg (G V c) (funext fun a => Fin.ext ?_)
  match a with
  | ⟨0, _⟩ => show (j 0).val = win2_3.index t (0 : Fin 2) * 256 + 1 * (j 0).val; rw [e0]; omega
  | ⟨1, _⟩ => show (j 1).val = win2_3.index t (1 : Fin 2) * 2 + 1 * (j 1).val; rw [e1]; omega

/-- An index of the output array is in the point's block iff each coordinate is in the block's range on its axis. -/
theorem mem_blk (t : Fin cfg2.N) (i : S256x2.Idx) :
    i ∈ ((cfg2.win 3).blk t).view.set ↔ ∀ a : Fin 2, win2_3.index t a * S256x2.size a ≤ (i a).val
      ∧ (i a).val < win2_3.index t a * S256x2.size a + S256x2.size a := by
  show i ∈ ((View.whole main_v61).slice (win2_3.rect t)).set ↔ _
  rw [View.set_slice_whole, Rect.mem_set_unit]
  exact Iff.rfl

/-- The one block covers the output array. -/
theorem cover (i : S256x2.Idx) :
    ∃ t : Fin cfg2.N, (cfg2.win 3).flush t = true ∧ i ∈ ((cfg2.win 3).blk t).view.set := by
  have hi0 : (i 0).val < 256 := (i 0).isLt
  have hi1 : (i 1).val < 2 := (i 1).isLt
  refine ⟨t2_0, flush2_3 _, ?_⟩
  rw [mem_blk]
  obtain ⟨-, -, -, -, -, -, e0, e1⟩ := idx_facts t2_0
  intro a
  match a with
  | ⟨0, _⟩ =>
    show win2_3.index t2_0 (0 : Fin 2) * 256 ≤ (i 0).val ∧ (i 0).val < win2_3.index t2_0 (0 : Fin 2) * 256 + 256
    rw [e0]; omega
  | ⟨1, _⟩ =>
    show win2_3.index t2_0 (1 : Fin 2) * 2 ≤ (i 1).val ∧ (i 1).val < win2_3.index t2_0 (1 : Fin 2) * 2 + 2
    rw [e1]; omega

/-- The output array after the launch is the body's value of the arrays as the launch finds them. -/
theorem final (c : Dev nD) : (dat2 V c).arrAt 3 cfg2.N = G V c :=
  (dat2 V c).arrAt_eq_of_cover 3 _ (fun t _ => flushed_eq V c t) cover

end Cert.KernelIdeal.Head

end
-- ==== Proof.RefHead.lean ====
/-
  The reference's head is the same function.

  The reference forms the logits pooled · Woutᵀ + b with a dot_general and a broadcast bias, and takes their
  log-softmax as jax spells it: the row maximum by a reduce from −∞, one more maximum with −∞, the shifted logits,
  exp, a row sum from 0, log, and a last subtraction. On the extended reals the row maximum is already a fold from −∞,
  so the extra maximum with −∞ changes nothing (a fold of max is at least its starting value), and the sum from 0 is
  the sum: element by element this is the kernel body's log-softmax of the same logits.
-/
import proofs.«140991_j31748398252702_1_alg».proof.Proof.Gen.ReferenceIdeal.Read
import proofs.«140991_j31748398252702_1_alg».proof.Proof.HeadPay
import Idealize.ShloMosaic.Lib.ValueLayout

set_option maxRecDepth 16384

noncomputable section

open scoped BigOperators

namespace Cert.Bridge

open Cert.ReferenceIdeal Cert.ReferenceIdeal.Read Idealize.ShloMosaic Idealize.ShloMosaic.ValueIdx

/-- The reference's logits are the kernel body's logits of the pooled features, the transposed output weights and
    the bias as a row. -/
theorem head_logits (x0 : (⟨S100000x64, .f32⟩ : BufTy).Contents (Elt Ideal)) (x1 : (⟨S2x1000000, .i32⟩ : BufTy).Contents (Elt Ideal))
    (x2 : (⟨S100000, .i32⟩ : BufTy).Contents (Elt Ideal))
    (x3 : (⟨S128x64, .f32⟩ : BufTy).Contents (Elt Ideal)) (x4 : (⟨S128, .f32⟩ : BufTy).Contents (Elt Ideal))
    (x5 : (⟨S128x64, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S2x128, .f32⟩ : BufTy).Contents (Elt Ideal)) (x10 : (⟨S2, .f32⟩ : BufTy).Contents (Elt Ideal))
    (h : (⟨1, ![2]⟩ : Shape).ShapeCasts ⟨2, ![1, 2]⟩) :
    val_main_v73 (F := Ideal) x0 x1 x2 x3 x4 x5 x6 x7 x8 x9 x10
      = Cert.KernelIdeal.Head.logits (val_main_v68 (F := Ideal) x0 x1 x2 x3 x4 x5 x6 x7 x8) (val_main_v69 (F := Ideal) x9)
          (shapeCast ⟨2, ![1, 2]⟩ x10 h) := by
  funext i
  obtain ⟨p, q, rfl⟩ : ∃ (p : Fin 256) (q : Fin 2), i = ix2 p q := ⟨i 0, i 1, eq_ix2 i⟩
  rw [Cert.KernelIdeal.Head.logits_apply, val_main_v73_apply, val_main_v70_apply, val_main_v72_apply, val_main_v71_apply]
  have hl : ∀ k, lidx_main_v70 (ix2 p q) k = ix2 p k :=
    fun k => funext fun a => match a with | ⟨0, _⟩ => rfl | ⟨1, _⟩ => rfl
  have hr : ∀ k, ridx_main_v70 (ix2 p q) k = ix2 k q :=
    fun k => funext fun a => match a with | ⟨0, _⟩ => rfl | ⟨1, _⟩ => rfl
  have hb : shapeCast ⟨2, ![1, 2]⟩ x10 h (ix2 (0 : Fin 1) q) = x10 (idx_main_v71 (idx_main_v72 (ix2 p q))) :=
    (shapeCast_a_1a_apply x10 h 0 q).trans (congrArg x10 (funext fun a => match a with | ⟨0, _⟩ => rfl))
  simp only [hl, hr]
  rw [hb]
  rfl

/-- The reference's row maximum is the fold of max from −∞ over the row. -/
theorem head_rowmax (x0 : (⟨S100000x64, .f32⟩ : BufTy).Contents (Elt Ideal)) (x1 : (⟨S2x1000000, .i32⟩ : BufTy).Contents (Elt Ideal))
    (x2 : (⟨S100000, .i32⟩ : BufTy).Contents (Elt Ideal))
    (x3 : (⟨S128x64, .f32⟩ : BufTy).Contents (Elt Ideal)) (x4 : (⟨S128, .f32⟩ : BufTy).Contents (Elt Ideal))
    (x5 : (⟨S128x64, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S2x128, .f32⟩ : BufTy).Contents (Elt Ideal)) (x10 : (⟨S2, .f32⟩ : BufTy).Contents (Elt Ideal)) (p : Fin 256) :
    val_main_call2_v0 (F := Ideal) x0 x1 x2 x3 x4 x5 x6 x7 x8 x9 x10 (ix1 p)
      = Cert.KernelIdeal.Head.rowMax (val_main_v73 (F := Ideal) x0 x1 x2 x3 x4 x5 x6 x7 x8 x9 x10) p := by
  unfold val_main_call2_v0
  generalize val_main_v73 (F := Ideal) x0 x1 x2 x3 x4 x5 x6 x7 x8 x9 x10 = Z
  refine (Host.reduce_eq_fold_single (FloatOps.maximumf (F := Ideal) (φ := .f32)) (Z : S256x2.Idx → Ideal .f32) _ Facts₀.reducesTo_S256x2_S256_d1
    (Cert.KernelIdeal.Facts₀.reduces_S256x2_S256) Facts₀.h_S_ (ix1 p)).trans ?_
  unfold Cert.KernelIdeal.Head.rowMax
  exact congrArg (fun f => Finset.fold max (Ideal.ofBits .f32 0xFF800000#32) f Finset.univ)
    (funext fun k => congrArg Z (Cert.KernelIdeal.Head.lift_row p k))

/-- A fold of max is at least its starting value. -/
theorem max_fold_self {ι : Type} (s : Finset ι) (a : EReal) (f : ι → EReal) : max a (s.fold max a f) = s.fold max a f :=
  max_eq_right ((Finset.le_fold_max a).mpr (Or.inl le_rfl))

/-- The reference's result is the kernel body's log-softmax of the reference's logits. -/
theorem head_tail (x0 : (⟨S100000x64, .f32⟩ : BufTy).Contents (Elt Ideal)) (x1 : (⟨S2x1000000, .i32⟩ : BufTy).Contents (Elt Ideal))
    (x2 : (⟨S100000, .i32⟩ : BufTy).Contents (Elt Ideal))
    (x3 : (⟨S128x64, .f32⟩ : BufTy).Contents (Elt Ideal)) (x4 : (⟨S128, .f32⟩ : BufTy).Contents (Elt Ideal))
    (x5 : (⟨S128x64, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S2x128, .f32⟩ : BufTy).Contents (Elt Ideal)) (x10 : (⟨S2, .f32⟩ : BufTy).Contents (Elt Ideal)) :
    val_main_v74 (F := Ideal) x0 x1 x2 x3 x4 x5 x6 x7 x8 x9 x10
      = Cert.KernelIdeal.Head.lsm (val_main_v73 (F := Ideal) x0 x1 x2 x3 x4 x5 x6 x7 x8 x9 x10) := by
  funext i
  obtain ⟨p, q, rfl⟩ : ∃ (p : Fin 256) (q : Fin 2), i = ix2 p q := ⟨i 0, i 1, eq_ix2 i⟩
  rw [Cert.KernelIdeal.Head.lsm_apply]
  simp only [val_main_v74_apply, val_main_call2_v5_apply, val_main_call2_v10_apply, val_main_call2_v9_apply,
    val_main_call2_v8_apply, val_main_call2_v7_apply, val_main_call2_v6_apply, val_main_call2_v4_apply,
    val_main_call2_v3_apply, val_main_call2_v2_apply, val_main_call2_v1_apply, val_main_call2_cst_0_apply,
    val_main_call2_cst_1_apply]
  have j1 : idx_main_call2_v3 (idx_main_call2_v4 (ix2 p q)) = ix1 p := funext fun a => match a with | ⟨0, _⟩ => rfl
  have j2 : idx_main_call2_v8 (idx_main_call2_v10 (ix2 p q)) = ix1 p := funext fun a => match a with | ⟨0, _⟩ => rfl
  have j3 : ∀ k : Fin 2, idx_main_call2_v7 (ix1 p) k = ix2 p k :=
    fun k => funext fun a => match a with | ⟨0, _⟩ => rfl | ⟨1, _⟩ => rfl
  have j4 : ∀ k : Fin 2, idx_main_call2_v3 (idx_main_call2_v4 (ix2 p k)) = ix1 p :=
    fun k => funext fun a => match a with | ⟨0, _⟩ => rfl
  rw [j1, j2, Fin.sum_univ_two, Fin.sum_univ_two, j3 0, j3 1, j4 0, head_rowmax]
  have hR : max (Ideal.ofBits .f32 0xFF800000#32) (Cert.KernelIdeal.Head.rowMax (val_main_v73 (F := Ideal) x0 x1 x2 x3 x4 x5 x6 x7 x8 x9 x10) p)
      = Cert.KernelIdeal.Head.rowMax (val_main_v73 (F := Ideal) x0 x1 x2 x3 x4 x5 x6 x7 x8 x9 x10) p := by
    unfold Cert.KernelIdeal.Head.rowMax
    exact max_fold_self _ _ _
  generalize Cert.KernelIdeal.Head.rowMax (val_main_v73 (F := Ideal) x0 x1 x2 x3 x4 x5 x6 x7 x8 x9 x10) p = R at hR ⊢
  generalize val_main_v73 (F := Ideal) x0 x1 x2 x3 x4 x5 x6 x7 x8 x9 x10 (ix2 p q) = A
  generalize val_main_v73 (F := Ideal) x0 x1 x2 x3 x4 x5 x6 x7 x8 x9 x10 (ix2 p 0) = A0
  generalize val_main_v73 (F := Ideal) x0 x1 x2 x3 x4 x5 x6 x7 x8 x9 x10 (ix2 p 1) = A1
  show (A - max (Ideal.ofBits .f32 0xFF800000#32) R)
      - Ideal.log (Ideal.ofBits .f32 0x00000000#32
          + (Ideal.exp (A0 - max (Ideal.ofBits .f32 0xFF800000#32) R)
            + Ideal.exp (A1 - max (Ideal.ofBits .f32 0xFF800000#32) R))) = _
  rw [hR, Ideal.ofBits_zero_f32, zero_add]

end Cert.Bridge

end
-- ==== Proof.Host2.lean ====
/-
  The contents at the head launch's entry, and the result.

  The third stretch of host operations pools the second hidden array over the graph ids — a scatter-add of the rows, a
  scatter-add of ones for the counts, a division by the clamped count — exactly as the reference does, and lays out
  the output weights transposed and the output bias as a [1, 2] row. The head launch then leaves the log-softmax of
  the logits of those three arrays, which is the reference's result.
-/
import proofs.«140991_j31748398252702_1_alg».proof.Proof.Host1
import proofs.«140991_j31748398252702_1_alg».proof.Proof.HeadArray
import proofs.«140991_j31748398252702_1_alg».proof.Proof.RefHead

set_option maxRecDepth 16384

noncomputable section

namespace Cert.KernelIdeal.Stretch

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

set_option maxHeartbeats 4000000 in
/-- The second hidden array pooled over the graph ids. -/
theorem w5_pool (c : Dev nD) : W5 m ρ c (Proc.devRef .tc main_v58)
    = Cert.ReferenceIdeal.Read.val_main_v68 (F := Ideal) (X0 m c) (X1 m c) (X2 m c) (X3 m c) (X4 m c) (X5 m c) (X6 m c) (X7 m c) (X8 m c) := by
  show StableHlo.after hostOps2 (W4 m ρ c) (Proc.devRef .tc main_v58) = _
  after_results_simp
  rw [w4_h2, w4_arg2]
  rfl

/-- The output weights, transposed. -/
theorem w5_w (c : Dev nD) : W5 m ρ c (Proc.devRef .tc main_v59) = Cert.ReferenceIdeal.Read.val_main_v69 (F := Ideal) (X9 m c) := by
  show StableHlo.after hostOps2 (W4 m ρ c) (Proc.devRef .tc main_v59) = _
  after_results_simp
  rw [w4_arg9]
  rfl

/-- The output bias as a [1, 2] row. -/
theorem w5_b (c : Dev nD) : W5 m ρ c (Proc.devRef .tc main_v60) = shapeCast S1x2 (X10 m c) Facts₀.shapeCasts_S2_S1x2 := by
  show StableHlo.after hostOps2 (W4 m ρ c) (Proc.devRef .tc main_v60) = _
  after_results_simp
  rw [w4_arg10]
  rfl

/-- The kernel program's result buffer ends at the reference's result of the launch memory's arguments. -/
theorem w6_out (c : Dev nD) : W6 m ρ c (Proc.devRef .tc main_v61)
    = Cert.ReferenceIdeal.Read.val_main_v74 (F := Ideal) (X0 m c) (X1 m c) (X2 m c) (X3 m c) (X4 m c) (X5 m c) (X6 m c) (X7 m c)
        (X8 m c) (X9 m c) (X10 m c) := by
  refine (W6_arr m ρ c 3).trans ((Cert.KernelIdeal.Head.final (V5 m ρ) c).trans ?_)
  have e0 : V5 m ρ c main_v58 = _ := w5_pool m ρ c
  have e1 : V5 m ρ c main_v59 = _ := w5_w m ρ c
  have e2 : V5 m ρ c main_v60 = _ := w5_b m ρ c
  show k2_pay1 (F := Ideal) (V5 m ρ c main_v58) (V5 m ρ c main_v59) (V5 m ρ c main_v60) = _
  rw [e0, e1, e2]
  exact (Cert.KernelIdeal.Head.pay_eq _ _ _).trans
    ((congrArg Cert.KernelIdeal.Head.lsm (Cert.Bridge.head_logits (X0 m c) (X1 m c) (X2 m c) (X3 m c) (X4 m c) (X5 m c) (X6 m c)
        (X7 m c) (X8 m c) (X9 m c) (X10 m c) Facts₀.shapeCasts_S2_S1x2).symm).trans
      (Cert.Bridge.head_tail (X0 m c) (X1 m c) (X2 m c) (X3 m c) (X4 m c) (X5 m c) (X6 m c) (X7 m c) (X8 m c) (X9 m c) (X10 m c)).symm)

end Cert.KernelIdeal.Stretch

end
-- ==== Proof.lean ====
/-
  A two-layer mean-aggregation graph network with mean pooling and a log-softmax head, over 100000 nodes,
  1000000 edges and 256 graphs: the kernel program against its reference, on the extended reals.

  Both programs aggregate features over the edges on the host (gather by source, scatter-add by target, divide by the
  clamped in-degree) and pool over the graph ids the same way; they differ only in where the dense parts run. The
  kernel program computes each layer h' = max(agg · Wlᵀ + b + h · Wrᵀ, 0) in a launch over 50 blocks of 2000 rows and
  the head, the row-wise log-softmax of pooled · Woutᵀ + b, in a one-block launch; the reference computes them with
  whole-array dot_generals and jax's log-softmax.

  On the extended reals a change of float format is the identity, a product into a zero accumulator and a dot_general
  are the same sum over the contracted coordinate, and a row's maximum taken from −∞ absorbs one more maximum with −∞.
  So each launch's output array is the reference's array of the same stage, the host stretches between the launches
  are the reference's own operations applied to equal arrays, and the two results agree element by element. No
  finiteness of the inputs is used: the two sides apply the same operations in the same order and grouping.

  The three frames are the generated frame certificates of the two kernel programs and the reference's generated run;
  the idealization rewrote no operation, so there is nothing to preserve.
-/
import proofs.«140991_j31748398252702_1_alg».proof.Defs
import proofs.«140991_j31748398252702_1_alg».proof.Proof.Gen.Kernel
import proofs.«140991_j31748398252702_1_alg».proof.Proof.Gen.Kernel.Skeleton
import proofs.«140991_j31748398252702_1_alg».proof.Proof.Gen.Kernel.Launch
import proofs.«140991_j31748398252702_1_alg».proof.Proof.Gen.Kernel.Points
import proofs.«140991_j31748398252702_1_alg».proof.Proof.Gen.Kernel.Frame
import proofs.«140991_j31748398252702_1_alg».proof.Proof.Gen.KernelIdeal
import proofs.«140991_j31748398252702_1_alg».proof.Proof.Gen.KernelIdeal.Skeleton
import proofs.«140991_j31748398252702_1_alg».proof.Proof.Gen.KernelIdeal.Launch
import proofs.«140991_j31748398252702_1_alg».proof.Proof.Gen.KernelIdeal.Points
import proofs.«140991_j31748398252702_1_alg».proof.Proof.Gen.KernelIdeal.Frame
import proofs.«140991_j31748398252702_1_alg».proof.Proof.Gen.ReferenceIdeal
import proofs.«140991_j31748398252702_1_alg».proof.Proof.Gen.Pre_finite_inputs
import proofs.«140991_j31748398252702_1_alg».proof.Proof.Gen.ReferenceIdeal.Run
import proofs.«140991_j31748398252702_1_alg».proof.Proof.Gen.ReferenceIdeal.Read
import proofs.«140991_j31748398252702_1_alg».proof.Proof.KernelRun
import proofs.«140991_j31748398252702_1_alg».proof.Proof.Host2
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage of the (agreeing) arguments: the kernel program because its
    result buffer ends at the last boundary's contents, which the three launches and the host stretches between them
    bring to that stage; the reference by its own run. -/
theorem algebraic : Cert.algebraic_KernelIdeal_ReferenceIdeal := by
  intro m ρ m' ρ' _ hagree
  refine ⟨fun c => Cert.ReferenceIdeal.Read.val_main_v74 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Stretch.w6_out m ρ c), (h c).2⟩)
      (Cert.KernelIdeal.Out.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v74_eq]
    obtain ⟨e0, e1, e2, e3, e4, e5, e6, e7, e8, e9, e10⟩ := hagree c
    rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
